-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S320000x1 : Shape := ⟨2, ![320000, 1]⟩
abbrev S1x256 : Shape := ⟨2, ![1, 256]⟩
abbrev S256 : Shape := ⟨1, ![256]⟩
abbrev S256x256 : Shape := ⟨2, ![256, 256]⟩
abbrev S512x256 : Shape := ⟨2, ![512, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_

variable [Facts]

def fn_part5 {F : FTy → Type} [FloatOps F] (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  main_v88

def fn_part4 {F : FTy → Type} [FloatOps F] (main_arg15 : FVec F S512x256 .f32) (main_arg16 : FVec F S256 .f32) (main_arg17 : FVec F S256x256 .f32) (main_arg18 : FVec F S256 .f32) (main_v63 : IVec S_ 1) (main_v67 : IVec S_ 1) : IVec S_ 1 :=
  let main_v68 : IVec S_ 1 := andi main_v63 main_v67
  let main_v69 : FVec F S512x256 .f32 := Host.absf main_arg15
  let main_cst_26 : FVec F S_ .f32 := constant S_ .f32 0x7F800000#32
  let main_v70 : FVec F S512x256 .f32 := broadcastInDim S512x256 ![] bcast_S_S512x256 main_cst_26
  let main_v71 : IVec S512x256 1 := cmpf .olt main_v69 main_v70
  let main_c_27 : IVec S_ 1 := constantI S_ 1 1#1
  let main_v72 : IVec S_ 1 := (fun x v => Host.reduce IntOp.andi x v reducesTo_S512x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg17
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_v83 main_v84 main_cst_32

def fn_part3 {F : FTy → Type} [FloatOps F] (main_arg12 : FVec F S256 .f32) (main_arg13 : FVec F S256x256 .f32) (main_arg14 : FVec F S256 .f32) (main_arg15 : FVec F S512x256 .f32) (main_arg16 : FVec F S256 .f32) (main_arg17 : FVec F S256x256 .f32) (main_arg18 : FVec F S256 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_v63 main_v67

def fn_part2 {F : FTy → Type} [FloatOps F] (main_arg8 : FVec F S256 .f32) (main_arg9 : FVec F S256x256 .f32) (main_arg10 : FVec F S256 .f32) (main_arg11 : FVec F S1x256 .f32) (main_arg12 : FVec F S256 .f32) (main_arg13 : FVec F S256x256 .f32) (main_arg14 : FVec F S256 .f32) (main_arg15 : FVec F S512x256 .f32) (main_arg16 : FVec F S256 .f32) (main_arg17 : FVec F S256x256 .f32) (main_arg18 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg11
  let main_cst_18 : FVec F S_ .f32 := constant S_ .f32 0x7F800000#32
  let main_v50 : FVec F S1x256 .f32 := broadcastInDim S1x256 ![] bcast_S_S1x256 main_cst_18
  fn_part3 (F := F) main_arg12 main_arg13 main_arg14 main_arg15 main_arg16 main_arg17 main_arg18 main_v48 main_v49 main_v50

def fn_part1 {F : FTy → Type} [FloatOps F] (main_arg5 : FVec F S256x256 .f32) (main_arg6 : FVec F S256 .f32) (main_arg7 : FVec F S512x256 .f32) (main_arg8 : FVec F S256 .f32) (main_arg9 : FVec F S256x256 .f32) (main_arg10 : FVec F S256 .f32) (main_arg11 : FVec F S1x256 .f32) (main_arg12 : FVec F S256 .f32) (main_arg13 : FVec F S256x256 .f32) (main_arg14 : FVec F S256 .f32) (main_arg15 : FVec F S512x256 .f32) (main_arg16 : FVec F S256 .f32) (main_arg17 : FVec F S256x256 .f32) (main_arg18 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x256 .f32) (main_arg1 : IVec S2x320000 32) (main_arg2 : FVec F S320000x1 .f32) (main_arg3 : FVec F S1x256 .f32) (main_arg4 : FVec F S256 .f32) (main_arg5 : FVec F S256x256 .f32) (main_arg6 : FVec F S256 .f32) (main_arg7 : FVec F S512x256 .f32) (main_arg8 : FVec F S256 .f32) (main_arg9 : FVec F S256x256 .f32) (main_arg10 : FVec F S256 .f32) (main_arg11 : FVec F S1x256 .f32) (main_arg12 : FVec F S256 .f32) (main_arg13 : FVec F S256x256 .f32) (main_arg14 : FVec F S256 .f32) (main_arg15 : FVec F S512x256 .f32) (main_arg16 : FVec F S256 .f32) (main_arg17 : FVec F S256x256 .f32) (main_arg18 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S320000x1 .f32 := Host.absf main_arg2
  let main_cst_0 : FVec F S_ .f32 := constant S_ .f32 0x7F800000#32
  let main_v5 : FVec F S320000x1 .f32 := broadcastInDim S320000x1 ![] bcast_S_S320000x1 main_cst_0
  let main_v6 : IVec S320000x1 1 := cmpf .olt main_v4 main_v5
  let main_c_1 : IVec S_ 1 := constantI S_ 1 1#1
  let main_v7 : IVec S_ 1 := (fun x v => Host.reduce IntOp.andi x v reducesTo_S320000x1_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x256 : Shape := ⟨2, ![50000, 256]⟩
abbrev S2x320000 : Shape := ⟨2, ![2, 320000]⟩
abbrev S320000x1 : Shape := ⟨2, ![320000, 1]⟩
abbrev S1x256 : Shape := ⟨2, ![1, 256]⟩
abbrev S256 : Shape := ⟨1, ![256]⟩
abbrev S256x256 : Shape := ⟨2, ![256, 256]⟩
abbrev S512x256 : Shape := ⟨2, ![512, 256]⟩
abbrev S1x320000 : Shape := ⟨2, ![1, 320000]⟩
abbrev S320000 : Shape := ⟨1, ![320000]⟩
abbrev S_ : Shape := ⟨0, ![]⟩
abbrev S320000x256 : Shape := ⟨2, ![320000, 256]⟩
abbrev S4000x1 : Shape := ⟨2, ![4000, 1]⟩
abbrev S4000x256 : Shape := ⟨2, ![4000, 256]⟩
abbrev S2000x256 : Shape := ⟨2, ![2000, 256]⟩

abbrev nBuf : Space → Nat
  | .hbm => 65
  | .vmem => 42
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S320000x1, .f32⟩
  | .hbm, ⟨3, _⟩ => ⟨S1x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S512x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S1x320000, .i32⟩
  | .hbm, ⟨20, _⟩ => ⟨S320000, .i32⟩
  | .hbm, ⟨21, _⟩ => ⟨S1x320000, .i32⟩
  | .hbm, ⟨22, _⟩ => ⟨S320000, .i32⟩
  | .hbm, ⟨23, _⟩ => ⟨S_, .i32⟩
  | .hbm, ⟨24, _⟩ => ⟨S320000, .i32⟩
  | .hbm, ⟨25, _⟩ => ⟨S320000, .i1⟩
  | .hbm, ⟨26, _⟩ => ⟨S_, .i32⟩
  | .hbm, ⟨27, _⟩ => ⟨S320000, .i32⟩
  | .hbm, ⟨28, _⟩ => ⟨S320000, .i32⟩
  | .hbm, ⟨29, _⟩ => ⟨S320000, .i32⟩
  | .hbm, ⟨30, _⟩ => ⟨S320000x1, .i32⟩
  | .hbm, ⟨31, _⟩ => ⟨S320000x256, .f32⟩
  | .hbm, ⟨32, _⟩ => ⟨S1x256, .f32⟩
  | .hbm, ⟨33, _⟩ => ⟨S1x256, .f32⟩
  | .hbm, ⟨34, _⟩ => ⟨S320000x256, .f32⟩
  | .hbm, ⟨35, _⟩ => ⟨S_, .f32⟩
  | .hbm, ⟨36, _⟩ => ⟨S50000x256, .f32⟩
  | .hbm, ⟨37, _⟩ => ⟨S320000x1, .i32⟩
  | .hbm, ⟨38, _⟩ => ⟨S50000x256, .f32⟩
  | .hbm, ⟨39, _⟩ => ⟨S256x256, .f32⟩
  | .hbm, ⟨40, _⟩ => ⟨S256x256, .f32⟩
  | .hbm, ⟨41, _⟩ => ⟨S1x256, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S320000, .i32⟩
  | .hbm, ⟨46, _⟩ => ⟨S320000, .i1⟩
  | .hbm, ⟨47, _⟩ => ⟨S_, .i32⟩
  | .hbm, ⟨48, _⟩ => ⟨S320000, .i32⟩
  | .hbm, ⟨49, _⟩ => ⟨S320000, .i32⟩
  | .hbm, ⟨50, _⟩ => ⟨S320000, .i32⟩
  | .hbm, ⟨51, _⟩ => ⟨S320000x1, .i32⟩
  | .hbm, ⟨52, _⟩ => ⟨S320000x256, .f32⟩
  | .hbm, ⟨53, _⟩ => ⟨S1x256, .f32⟩
  | .hbm, ⟨54, _⟩ => ⟨S1x256, .f32⟩
  | .hbm, ⟨55, _⟩ => ⟨S320000x256, .f32⟩
  | .hbm, ⟨56, _⟩ => ⟨S_, .f32⟩
  | .hbm, ⟨57, _⟩ => ⟨S50000x256, .f32⟩
  | .hbm, ⟨58, _⟩ => ⟨S320000x1, .i32⟩
  | .hbm, ⟨59, _⟩ => ⟨S50000x256, .f32⟩
  | .hbm, ⟨60, _⟩ => ⟨S256x256, .f32⟩
  | .hbm, ⟨61, _⟩ => ⟨S256x256, .f32⟩
  | .hbm, ⟨62, _⟩ => ⟨S1x256, .f32⟩
  | .hbm, ⟨63, _⟩ => ⟨S1x256, .f32⟩
  | .hbm, ⟨64, _⟩ => ⟨S50000x256, .f32⟩
  | .local _ .vmem, ⟨0, _⟩ => ⟨S4000x1, .f32⟩
  | .local _ .vmem, ⟨1, _⟩ => ⟨S4000x1, .f32⟩
  | .local _ .vmem, ⟨2, _⟩ => ⟨S4000x256, .f32⟩
  | .local _ .vmem, ⟨3, _⟩ => ⟨S4000x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S4000x256, .f32⟩
  | .local _ .vmem, ⟨9, _⟩ => ⟨S4000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | .local _ .vmem, ⟨21, _⟩ => ⟨S4000x1, .f32⟩
  | .local _ .vmem, ⟨22, _⟩ => ⟨S4000x1, .f32⟩
  | .local _ .vmem, ⟨23, _⟩ => ⟨S4000x256, .f32⟩
  | .local _ .vmem, ⟨24, _⟩ => ⟨S4000x256, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S4000x256, .f32⟩
  | .local _ .vmem, ⟨30, _⟩ => ⟨S4000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S256x256, .f32⟩
  | .local _ .vmem, ⟨36, _⟩ => ⟨S256x256, .f32⟩
  | .local _ .vmem, ⟨37, _⟩ => ⟨S1x256, .f32⟩
  | .local _ .vmem, ⟨38, _⟩ => ⟨S256x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_1 : Ref sig .tc := ⟨.hbm, 44, rfl⟩
abbrev main_v22 : Ref sig .tc := ⟨.hbm, 45, rfl⟩
abbrev main_v23 : Ref sig .tc := ⟨.hbm, 46, rfl⟩
abbrev main_c_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  shapeCasts_S256_S1x256 : S256.ShapeCasts S1x256
  inb_S4000x1_S4000x1_0_0 : ∀ a, (![0, 0] : Fin 2 → Nat) a + S4000x1.size a ≤ S4000x1.size a
  h_S4000x1 : 0 < S4000x1.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4000x1_S4000x256 : S4000x1.Broadcasts S4000x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bcast_S_S50000x256 : S_.BroadcastsInDim S50000x256 (![] : Fin 0 → Fin S50000x256.rank)
  slices_S512x256_S256x256_0_0 : S512x256.Slices ![0, 0] S256x256
  slices_S512x256_S256x256_256_0 : S512x256.Slices ![256, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S256x256_S256x256 : S256x256.ShapeCasts S256x256
  broadcasts_S1x256_S2000x256 : S1x256.Broadcasts S2000x256
  gather_S50000x256_S320000x1_S320000x256_1_0_n_n_0_1_1256_wf : GatherDims.WF S50000x256 S320000x1 S320000x256 [1] [0] [] [0] [] 1 ![1, 256]
  dot_S4000x256_S256x256_S4000x256_1_0_0_1_n_n_wf : DotDims.WF S4000x256 S256x256 S4000x256 [1] [0] [0] [1] [] []
  scatter_S50000x256_S320000x1_S320000x256_1_0_0_1_wf : ScatterDims.WF S50000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S320000x1.size a
  hwx0_0 : ∀ i : grid0.Coords, EltTy.bits .f32 = 32 ∨ (Rect.block (s := S320000x1) S4000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S320000x256.size a
  hwx0_1 : ∀ i : grid0.Coords, EltTy.bits .f32 = 32 ∨ (Rect.block (s := S320000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S320000x256.size a
  hwx0_6 : ∀ i : grid0.Coords, EltTy.bits .f32 = 32 ∨ (Rect.block (s := S320000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x1.size a ≤ S320000x1.size a
  hwx2_0 : ∀ i : grid2.Coords, EltTy.bits .f32 = 32 ∨ (Rect.block (s := S320000x1) S4000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S320000x256.size a
  hwx2_1 : ∀ i : grid2.Coords, EltTy.bits .f32 = 32 ∨ (Rect.block (s := S320000x256) S4000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x256.size a ≤ S320000x256.size a
  hwx2_6 : ∀ i : grid2.Coords, EltTy.bits .f32 = 32 ∨ (Rect.block (s := S320000x256) S4000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .f32 = 32 ∨ (Rect.block (s := S50000x256) S2000x256.size (cc3_transform_7 i) (hinb3_7 i)).WholeWords (EltTy.packing .f32)

variable [Facts₀]

def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg2) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg2) S4000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S4000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v21) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S320000x1 : Shape := ⟨2, ![320000, 1]⟩
abbrev S1x256 : Shape := ⟨2, ![1, 256]⟩
abbrev S256 : Shape := ⟨1, ![256]⟩
abbrev S256x256 : Shape := ⟨2, ![256, 256]⟩
abbrev S512x256 : Shape := ⟨2, ![512, 256]⟩
abbrev S1x320000 : Shape := ⟨2, ![1, 320000]⟩
abbrev S320000 : Shape := ⟨1, ![320000]⟩
abbrev S320000x256 : Shape := ⟨2, ![320000, 256]⟩
abbrev S_ : Shape := ⟨0, ![]⟩
abbrev S50000x512 : Shape := ⟨2, ![50000, 512]⟩

abbrev nBuf : Space → Nat
  | .hbm => 103
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S320000x1, .f32⟩
  | .hbm, ⟨3, _⟩ => ⟨S1x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S512x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S1x320000, .i32⟩
  | .hbm, ⟨20, _⟩ => ⟨S320000, .i32⟩
  | .hbm, ⟨21, _⟩ => ⟨S1x320000, .i32⟩
  | .hbm, ⟨22, _⟩ => ⟨S320000, .i32⟩
  | .hbm, ⟨23, _⟩ => ⟨S320000x256, .f32⟩
  | .hbm, ⟨24, _⟩ => ⟨S1x256, .f32⟩
  | .hbm, ⟨25, _⟩ => ⟨S320000x256, .f32⟩
  | .hbm, ⟨26, _⟩ => ⟨S320000x256, .f32⟩
  | .hbm, ⟨27, _⟩ => ⟨S_, .f32⟩
  | .hbm, ⟨28, _⟩ => ⟨S320000x256, .f32⟩
  | .hbm, ⟨29, _⟩ => ⟨S320000x256, .f32⟩
  | .hbm, ⟨30, _⟩ => ⟨S320000x256, .f32⟩
  | .hbm, ⟨31, _⟩ => ⟨S1x256, .f32⟩
  | .hbm, ⟨32, _⟩ => ⟨S320000x256, .f32⟩
  | .hbm, ⟨33, _⟩ => ⟨S320000x256, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x256, .f32⟩
  | .hbm, ⟨43, _⟩ => ⟨S320000x256, .f32⟩
  | .hbm, ⟨44, _⟩ => ⟨S_, .f32⟩
  | .hbm, ⟨45, _⟩ => ⟨S50000x256, .f32⟩
  | .hbm, ⟨46, _⟩ => ⟨S320000x1, .i32⟩
  | .hbm, ⟨47, _⟩ => ⟨S50000x256, .f32⟩
  | .hbm, ⟨48, _⟩ => ⟨S50000x512, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x320000, .i32⟩
  | .hbm, ⟨62, _⟩ => ⟨S320000, .i32⟩
  | .hbm, ⟨63, _⟩ => ⟨S1x320000, .i32⟩
  | .hbm, ⟨64, _⟩ => ⟨S320000, .i32⟩
  | .hbm, ⟨65, _⟩ => ⟨S320000x256, .f32⟩
  | .hbm, ⟨66, _⟩ => ⟨S1x256, .f32⟩
  | .hbm, ⟨67, _⟩ => ⟨S320000x256, .f32⟩
  | .hbm, ⟨68, _⟩ => ⟨S320000x256, .f32⟩
  | .hbm, ⟨69, _⟩ => ⟨S_, .f32⟩
  | .hbm, ⟨70, _⟩ => ⟨S320000x256, .f32⟩
  | .hbm, ⟨71, _⟩ => ⟨S320000x256, .f32⟩
  | .hbm, ⟨72, _⟩ => ⟨S320000x256, .f32⟩
  | .hbm, ⟨73, _⟩ => ⟨S1x256, .f32⟩
  | .hbm, ⟨74, _⟩ => ⟨S320000x256, .f32⟩
  | .hbm, ⟨75, _⟩ => ⟨S320000x256, .f32⟩
  | .hbm, ⟨76, _⟩ => ⟨S_, .i32⟩
  | .hbm, ⟨77, _⟩ => ⟨S320000, .i32⟩
  | .hbm, ⟨78, _⟩ => ⟨S320000, .i1⟩
  | .hbm, ⟨79, _⟩ => ⟨S_, .i32⟩
  | .hbm, ⟨80, _⟩ => ⟨S320000, .i32⟩
  | .hbm, ⟨81, _⟩ => ⟨S320000, .i32⟩
  | .hbm, ⟨82, _⟩ => ⟨S320000, .i32⟩
  | .hbm, ⟨83, _⟩ => ⟨S320000x1, .i32⟩
  | .hbm, ⟨84, _⟩ => ⟨S320000x256, .f32⟩
  | .hbm, ⟨85, _⟩ => ⟨S320000x256, .f32⟩
  | .hbm, ⟨86, _⟩ => ⟨S_, .f32⟩
  | .hbm, ⟨87, _⟩ => ⟨S50000x256, .f32⟩
  | .hbm, ⟨88, _⟩ => ⟨S320000x1, .i32⟩
  | .hbm, ⟨89, _⟩ => ⟨S50000x256, .f32⟩
  | .hbm, ⟨90, _⟩ => ⟨S50000x512, .f32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S1x256, .f32⟩
  | .hbm, ⟨100, _⟩ => ⟨S50000x256, .f32⟩
  | .hbm, ⟨101, _⟩ => ⟨S50000x256, .f32⟩
  | .hbm, ⟨102, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_cst : Ref sig .tc := ⟨.hbm, 53, rfl⟩
abbrev main_call1_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call2_cst : Ref sig .tc := ⟨.hbm, 69, rfl⟩
abbrev main_call2_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_1 : Ref sig .tc := ⟨.hbm, 76, rfl⟩
abbrev main_v48 : Ref sig .tc := ⟨.hbm, 77, rfl⟩
abbrev main_v49 : Ref sig .tc := ⟨.hbm, 78, rfl⟩
abbrev main_c_2 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_3 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call3_cst : Ref sig .tc := ⟨.hbm, 95, rfl⟩
abbrev main_call3_v0 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S50000x256 : S_.BroadcastsInDim S50000x256 (![] : Fin 0 → Fin S50000x256.rank)
  concatenates_S50000x256_S50000x256_S50000x512_d1 : Shape.Concatenates [S50000x256, S50000x256] S50000x512 1
  bcast_S1x256_S50000x256_0_1 : S1x256.BroadcastsInDim S50000x256 (![0, 1] : Fin 2 → Fin S50000x256.rank)
  dot_S320000x1_S1x256_S320000x256_1_0_0_1_n_n_wf : DotDims.WF S320000x1 S1x256 S320000x256 [1] [0] [0] [1] [] []
  dot_S320000x256_S256x256_S320000x256_1_0_0_1_n_n_wf : DotDims.WF S320000x256 S256x256 S320000x256 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []

variable [Facts₀]

def dot_S320000x1_S1x256_S320000x256_1_0_0_1_n_n : DotDims S320000x1 S1x256 S320000x256 where
  lhsContracting := [1]
  rhsContracting := [0]
  lhsNonContracting := [0]
  rhsNonContracting := [1]
  lhsBatch := []
  rhsBatch := []
  wf := dot_S320000x1_S1x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with every unscoped buffer NAMED at its final contents.

  @main is eight segments: a stretch of host operations before each of the four kernel regions. The generated frame
  folds the buffer contents through those segments (`Gen.W0` at launch … `Gen.W8` at the return) and reads the last
  thread state against the final memory, keeping only the argument arrays. Here the same reading keeps every unscoped
  buffer: each one ends at `Gen.W8`, so in particular the result array does.
-/
import proofs.«112174_j9062380995258_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends at
    the last boundary's contents `Gen.W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, read at the result array and the nineteen argument arrays. -/
theorem run_result : θ_run defs (onTc (τ := τ) (main (F := F))) ⟨m, fun _ => 0, ρ⟩ (fun r => ∀ c : Dev nD,
      r.2.mem ((c.tc : Thread nD τ).loc main_v39) = W8 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
      ⟨h c _ (mem_uc main_v39 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)
    (run_all m ρ)

end Cert.KernelIdeal.KRun

end
-- ==== Proof.KernelValue.lean ====
/-
  The idealized kernel's result array as a function of the argument arrays.

  @main alternates stretches of host operations with four kernel regions. Layer by layer:
    a host stretch takes the source rows of the node features (a gather at row 1 of the edge list, a negative index
    counted from the end) and lays the two biases out as rows;
    an edge region writes every edge's message `edgeG` from its attribute, its source's features and the edge weights;
    a host stretch sums the messages at their destinations (a scatter-add into zeros at row 0 of the edge list), halves
    the first node weight, and lays the node biases out as rows;
    a node region writes every node's update `nodeG` from its features, its summed messages and the node weights.
  The contents of every buffer at each of the eight boundaries are the generated fold `Gen.W0 … Gen.W8`: a host stretch
  is read operation by operation, a region leaves its inputs and every other buffer as entered and its output at the
  region's value. What each region writes (`edgeG`, `nodeG` as whole-array functions of the region's entry arrays) is
  taken here as the hypothesis `RegionValues`; under it the result is the layer applied to the layer.
-/
import proofs.«112174_j9062380995258_1_alg».proof.Proof.Gen.KernelIdeal.Frame
import Idealize.ShloMosaic.Lib.StableHlo.Run
import Idealize.ShloMosaic.PureOps.Ideal

set_option maxRecDepth 16384

noncomputable section

namespace Cert.KernelIdeal.KV

open Cert.KernelIdeal Cert.KernelIdeal.Gen
open Idealize.ShloMosaic Idealize.ShloMosaic.TcCoe Idealize.ShloMosaic.StableHlo Idealize.SL.Sem

/-! ## The host operations between the regions, as functions of arrays -/

/-- Row 0 of the edge list: each edge's destination node. -/
def rowI (ei : (⟨S2x320000, .i32⟩ : BufTy).Contents (Elt Ideal)) : (⟨S320000, .i32⟩ : BufTy).Contents (Elt Ideal) :=
  shapeCast _ (extractStridedSlice S1x320000 ![0, 0] ei slices_S2x320000_S1x320000_0_0) shapeCasts_S1x320000_S320000

/-- Row 1 of the edge list: each edge's source node. -/
def rowJ (ei : (⟨S2x320000, .i32⟩ : BufTy).Contents (Elt Ideal)) : (⟨S320000, .i32⟩ : BufTy).Contents (Elt Ideal) :=
  shapeCast _ (extractStridedSlice S1x320000 ![1, 0] ei slices_S2x320000_S1x320000_1_0) shapeCasts_S1x320000_S320000

/-- The gather's start rows: the sources, a negative one counted from the end of the 50000 nodes. -/
def startJ (ei : (⟨S2x320000, .i32⟩ : BufTy).Contents (Elt Ideal)) : (⟨S320000x1, .i32⟩ : BufTy).Contents (Elt Ideal) :=
  broadcastInDim S320000x1 ![0] bcast_S320000_S320000x1_0
    (select (cmpi .slt (rowJ ei) (broadcastInDim S320000 ![] bcast_S_S320000 (constantI S_ 32 0#32)))
      (addi (rowJ ei) (broadcastInDim S320000 ![] bcast_S_S320000 (constantI S_ 32 50000#32))) (rowJ ei))

/-- The scatter's start rows: the destinations. -/
def startI (ei : (⟨S2x320000, .i32⟩ : BufTy).Contents (Elt Ideal)) : (⟨S320000x1, .i32⟩ : BufTy).Contents (Elt Ideal) :=
  broadcastInDim S320000x1 ![0] bcast_S320000_S320000x1_0 (rowI ei)

/-- Each edge's source row of the node features. -/
def gathered (x : (⟨S50000x256, .f32⟩ : BufTy).Contents (Elt Ideal)) (ei : (⟨S2x320000, .i32⟩ : BufTy).Contents (Elt Ideal)) : (⟨S320000x256, .f32⟩ : BufTy).Contents (Elt Ideal) :=
  Host.gather gather_S50000x256_S320000x1_S320000x256_1_0_n_n_0_1_1256 x (startJ ei)

/-- The messages summed at their destinations, from zero. -/
def summed (ei : (⟨S2x320000, .i32⟩ : BufTy).Contents (Elt Ideal)) (u : (⟨S320000x256, .f32⟩ : BufTy).Contents (Elt Ideal)) : (⟨S50000x256, .f32⟩ : BufTy).Contents (Elt Ideal) :=
  Host.scatterAdd scatter_S50000x256_S320000x1_S320000x256_1_0_0_1
    (broadcastInDim S50000x256 ![] bcast_S_S50000x256 (constant (F := Ideal) S_ .f32 0x00000000#32)) (startI ei) u

/-- A bias vector laid out as one row. -/
def rs (b : (⟨S256, .f32⟩ : BufTy).Contents (Elt Ideal)) : (⟨S1x256, .f32⟩ : BufTy).Contents (Elt Ideal) := shapeCast S1x256 b shapeCasts_S256_S1x256

/-- Rows 0–255 of the first node weight: the part that meets a node's own features. -/
def topHalf (W : (⟨S512x256, .f32⟩ : BufTy).Contents (Elt Ideal)) : (⟨S256x256, .f32⟩ : BufTy).Contents (Elt Ideal) :=
  extractStridedSlice S256x256 ![0, 0] W slices_S512x256_S256x256_0_0

/-- Rows 256–511 of the first node weight: the part that meets the summed messages. -/
def botHalf (W : (⟨S512x256, .f32⟩ : BufTy).Contents (Elt Ideal)) : (⟨S256x256, .f32⟩ : BufTy).Contents (Elt Ideal) :=
  extractStridedSlice S256x256 ![256, 0] W slices_S512x256_S256x256_256_0

/-! ## What the four regions write -/

/-- Each region's output array after the region, as a whole-array function (`edgeG` for the two edge regions, `nodeG`
    for the two node regions) of the arrays the region finds at entry. -/
structure RegionValues (edgeG : (S320000x1.Idx → EReal) → (S320000x256.Idx → EReal) → (S1x256.Idx → EReal) → (S1x256.Idx → EReal) → (S256x256.Idx → EReal) → (S1x256.Idx → EReal) → S320000x256.Idx → EReal) (nodeG : (S50000x256.Idx → EReal) → (S50000x256.Idx → EReal) → (S256x256.Idx → EReal) → (S256x256.Idx → EReal) → (S1x256.Idx → EReal) → (S256x256.Idx → EReal) → (S1x256.Idx → EReal) → S50000x256.Idx → EReal) : Prop where
  h0 : ∀ (V : (c : Dev nD) → (b : Ref sig .tc) → Buf (Elt Ideal) ((c : Thread nD τ).loc b)) (c : Dev nD), (dat0 (F := Ideal) V c).arrAt 6 cfg0.N
        = edgeG (V c main_arg2) (V c main_v10) (V c main_arg3) (V c main_v11) (V c main_arg5) (V c main_v12)
  h1 : ∀ (V : (c : Dev nD) → (b : Ref sig .tc) → Buf (Elt Ideal) ((c : Thread nD τ).loc b)) (c : Dev nD), (dat1 (F := Ideal) V c).arrAt 7 cfg1.N
        = nodeG (V c main_arg0) (V c main_v16) (V c main_v17) (V c main_v18) (V c main_v19) (V c main_arg9) (V c main_v20)
  h2 : ∀ (V : (c : Dev nD) → (b : Ref sig .tc) → Buf (Elt Ideal) ((c : Thread nD τ).loc b)) (c : Dev nD), (dat2 (F := Ideal) V c).arrAt 6 cfg2.N
        = edgeG (V c main_arg2) (V c main_v28) (V c main_arg11) (V c main_v29) (V c main_arg13) (V c main_v30)
  h3 : ∀ (V : (c : Dev nD) → (b : Ref sig .tc) → Buf (Elt Ideal) ((c : Thread nD τ).loc b)) (c : Dev nD), (dat3 (F := Ideal) V c).arrAt 7 cfg3.N
        = nodeG (V c main_v21) (V c main_v34) (V c main_v35) (V c main_v36) (V c main_v37) (V c main_arg17) (V c main_v38)

section Chain

variable (edgeG : (S320000x1.Idx → EReal) → (S320000x256.Idx → EReal) → (S1x256.Idx → EReal) → (S1x256.Idx → EReal) → (S256x256.Idx → EReal) → (S1x256.Idx → EReal) → S320000x256.Idx → EReal) (nodeG : (S50000x256.Idx → EReal) → (S50000x256.Idx → EReal) → (S256x256.Idx → EReal) → (S256x256.Idx → EReal) → (S1x256.Idx → EReal) → (S256x256.Idx → EReal) → (S1x256.Idx → EReal) → S50000x256.Idx → EReal)

/-- One layer of the kernel: the node region's function of the features, the summed edge messages and the prepared
    weights. -/
def layer (x : (⟨S50000x256, .f32⟩ : BufTy).Contents (Elt Ideal)) (ei : (⟨S2x320000, .i32⟩ : BufTy).Contents (Elt Ideal)) (ea : (⟨S320000x1, .f32⟩ : BufTy).Contents (Elt Ideal))
    (eW1 : (⟨S1x256, .f32⟩ : BufTy).Contents (Elt Ideal)) (eb1 : (⟨S256, .f32⟩ : BufTy).Contents (Elt Ideal)) (eW2 : (⟨S256x256, .f32⟩ : BufTy).Contents (Elt Ideal)) (eb2 : (⟨S256, .f32⟩ : BufTy).Contents (Elt Ideal))
    (nW1 : (⟨S512x256, .f32⟩ : BufTy).Contents (Elt Ideal)) (nb1 : (⟨S256, .f32⟩ : BufTy).Contents (Elt Ideal)) (nW2 : (⟨S256x256, .f32⟩ : BufTy).Contents (Elt Ideal)) (nb2 : (⟨S256, .f32⟩ : BufTy).Contents (Elt Ideal)) :
    (⟨S50000x256, .f32⟩ : BufTy).Contents (Elt Ideal) :=
  nodeG x (summed ei (edgeG ea (gathered x ei) eW1 (rs eb1) eW2 (rs eb2))) (topHalf nW1) (botHalf nW1) (rs nb1) nW2 (rs nb2)

variable (m : (ℓ : Loc nD τ sig) → Buf (Elt Ideal) ℓ) (ρ : Dev nD → PrngReg) (c : Dev nD)

/-! ## The buffers at each boundary (`wK_b`: buffer `b` at boundary `K`) -/

theorem w1_arg0 : W1 m ρ c (Proc.devRef .tc main_arg0) = (m ((c : Thread nD τ).loc main_arg0)) := by
  show StableHlo.after hostOps0 (W0 m ρ c) (Proc.devRef .tc _) = _
  after_results
theorem w1_arg2 : W1 m ρ c (Proc.devRef .tc main_arg2) = (m ((c : Thread nD τ).loc main_arg2)) := by
  show StableHlo.after hostOps0 (W0 m ρ c) (Proc.devRef .tc _) = _
  after_results
theorem w1_arg3 : W1 m ρ c (Proc.devRef .tc main_arg3) = (m ((c : Thread nD τ).loc main_arg3)) := by
  show StableHlo.after hostOps0 (W0 m ρ c) (Proc.devRef .tc _) = _
  after_results
theorem w1_arg5 : W1 m ρ c (Proc.devRef .tc main_arg5) = (m ((c : Thread nD τ).loc main_arg5)) := by
  show StableHlo.after hostOps0 (W0 m ρ c) (Proc.devRef .tc _) = _
  after_results
theorem w1_arg7 : W1 m ρ c (Proc.devRef .tc main_arg7) = (m ((c : Thread nD τ).loc main_arg7)) := by
  show StableHlo.after hostOps0 (W0 m ρ c) (Proc.devRef .tc _) = _
  after_results
theorem w1_arg8 : W1 m ρ c (Proc.devRef .tc main_arg8) = (m ((c : Thread nD τ).loc main_arg8)) := by
  show StableHlo.after hostOps0 (W0 m ρ c) (Proc.devRef .tc _) = _
  after_results
theorem w1_arg9 : W1 m ρ c (Proc.devRef .tc main_arg9) = (m ((c : Thread nD τ).loc main_arg9)) := by
  show StableHlo.after hostOps0 (W0 m ρ c) (Proc.devRef .tc _) = _
  after_results
theorem w1_arg10 : W1 m ρ c (Proc.devRef .tc main_arg10) = (m ((c : Thread nD τ).loc main_arg10)) := by
  show StableHlo.after hostOps0 (W0 m ρ c) (Proc.devRef .tc _) = _
  after_results
theorem w1_arg11 : W1 m ρ c (Proc.devRef .tc main_arg11) = (m ((c : Thread nD τ).loc main_arg11)) := by
  show StableHlo.after hostOps0 (W0 m ρ c) (Proc.devRef .tc _) = _
  after_results
theorem w1_arg12 : W1 m ρ c (Proc.devRef .tc main_arg12) = (m ((c : Thread nD τ).loc main_arg12)) := by
  show StableHlo.after hostOps0 (W0 m ρ c) (Proc.devRef .tc _) = _
  after_results
theorem w1_arg13 : W1 m ρ c (Proc.devRef .tc main_arg13) = (m ((c : Thread nD τ).loc main_arg13)) := by
  show StableHlo.after hostOps0 (W0 m ρ c) (Proc.devRef .tc _) = _
  after_results
theorem w1_arg14 : W1 m ρ c (Proc.devRef .tc main_arg14) = (m ((c : Thread nD τ).loc main_arg14)) := by
  show StableHlo.after hostOps0 (W0 m ρ c) (Proc.devRef .tc _) = _
  after_results
theorem w1_arg15 : W1 m ρ c (Proc.devRef .tc main_arg15) = (m ((c : Thread nD τ).loc main_arg15)) := by
  show StableHlo.after hostOps0 (W0 m ρ c) (Proc.devRef .tc _) = _
  after_results
theorem w1_arg16 : W1 m ρ c (Proc.devRef .tc main_arg16) = (m ((c : Thread nD τ).loc main_arg16)) := by
  show StableHlo.after hostOps0 (W0 m ρ c) (Proc.devRef .tc _) = _
  after_results
theorem w1_arg17 : W1 m ρ c (Proc.devRef .tc main_arg17) = (m ((c : Thread nD τ).loc main_arg17)) := by
  show StableHlo.after hostOps0 (W0 m ρ c) (Proc.devRef .tc _) = _
  after_results
theorem w1_arg18 : W1 m ρ c (Proc.devRef .tc main_arg18) = (m ((c : Thread nD τ).loc main_arg18)) := by
  show StableHlo.after hostOps0 (W0 m ρ c) (Proc.devRef .tc _) = _
  after_results
theorem w1_v1 : W1 m ρ c (Proc.devRef .tc main_v1) = rowI (m ((c : Thread nD τ).loc main_arg1)) := by
  show StableHlo.after hostOps0 (W0 m ρ c) (Proc.devRef .tc _) = _
  after_results
  rfl
theorem w1_v3 : W1 m ρ c (Proc.devRef .tc main_v3) = rowJ (m ((c : Thread nD τ).loc main_arg1)) := by
  show StableHlo.after hostOps0 (W0 m ρ c) (Proc.devRef .tc _) = _
  after_results
  rfl
theorem w1_v10 : W1 m ρ c (Proc.devRef .tc main_v10) = gathered (m ((c : Thread nD τ).loc main_arg0)) (m ((c : Thread nD τ).loc main_arg1)) := by
  show StableHlo.after hostOps0 (W0 m ρ c) (Proc.devRef .tc _) = _
  after_results
  rfl
theorem w1_v11 : W1 m ρ c (Proc.devRef .tc main_v11) = rs (m ((c : Thread nD τ).loc main_arg4)) := by
  show StableHlo.after hostOps0 (W0 m ρ c) (Proc.devRef .tc _) = _
  after_results
  rfl
theorem w1_v12 : W1 m ρ c (Proc.devRef .tc main_v12) = rs (m ((c : Thread nD τ).loc main_arg6)) := by
  show StableHlo.after hostOps0 (W0 m ρ c) (Proc.devRef .tc _) = _
  after_results
  rfl
theorem w2_arg2 : W2 m ρ c (Proc.devRef .tc main_arg2) = (m ((c : Thread nD τ).loc main_arg2)) :=
  ((W2_arr m ρ c 0).trans (((dat0 (V1 m ρ) c).arrAt_in 0 rfl _).trans (A_eq0 (V1 m ρ) c 0))).trans (w1_arg2 m ρ c)
theorem w2_arg0 : W2 m ρ c (Proc.devRef .tc main_arg0) = (m ((c : Thread nD τ).loc main_arg0)) := by
  exact (W2_of_ne m ρ c main_arg0 (by decide)).trans (w1_arg0 m ρ c)
theorem w2_arg7 : W2 m ρ c (Proc.devRef .tc main_arg7) = (m ((c : Thread nD τ).loc main_arg7)) := by
  exact (W2_of_ne m ρ c main_arg7 (by decide)).trans (w1_arg7 m ρ c)
theorem w2_arg8 : W2 m ρ c (Proc.devRef .tc main_arg8) = (m ((c : Thread nD τ).loc main_arg8)) := by
  exact (W2_of_ne m ρ c main_arg8 (by decide)).trans (w1_arg8 m ρ c)
theorem w2_arg9 : W2 m ρ c (Proc.devRef .tc main_arg9) = (m ((c : Thread nD τ).loc main_arg9)) := by
  exact (W2_of_ne m ρ c main_arg9 (by decide)).trans (w1_arg9 m ρ c)
theorem w2_arg10 : W2 m ρ c (Proc.devRef .tc main_arg10) = (m ((c : Thread nD τ).loc main_arg10)) := by
  exact (W2_of_ne m ρ c main_arg10 (by decide)).trans (w1_arg10 m ρ c)
theorem w2_arg11 : W2 m ρ c (Proc.devRef .tc main_arg11) = (m ((c : Thread nD τ).loc main_arg11)) := by
  exact (W2_of_ne m ρ c main_arg11 (by decide)).trans (w1_arg11 m ρ c)
theorem w2_arg12 : W2 m ρ c (Proc.devRef .tc main_arg12) = (m ((c : Thread nD τ).loc main_arg12)) := by
  exact (W2_of_ne m ρ c main_arg12 (by decide)).trans (w1_arg12 m ρ c)
theorem w2_arg13 : W2 m ρ c (Proc.devRef .tc main_arg13) = (m ((c : Thread nD τ).loc main_arg13)) := by
  exact (W2_of_ne m ρ c main_arg13 (by decide)).trans (w1_arg13 m ρ c)
theorem w2_arg14 : W2 m ρ c (Proc.devRef .tc main_arg14) = (m ((c : Thread nD τ).loc main_arg14)) := by
  exact (W2_of_ne m ρ c main_arg14 (by decide)).trans (w1_arg14 m ρ c)
theorem w2_arg15 : W2 m ρ c (Proc.devRef .tc main_arg15) = (m ((c : Thread nD τ).loc main_arg15)) := by
  exact (W2_of_ne m ρ c main_arg15 (by decide)).trans (w1_arg15 m ρ c)
theorem w2_arg16 : W2 m ρ c (Proc.devRef .tc main_arg16) = (m ((c : Thread nD τ).loc main_arg16)) := by
  exact (W2_of_ne m ρ c main_arg16 (by decide)).trans (w1_arg16 m ρ c)
theorem w2_arg17 : W2 m ρ c (Proc.devRef .tc main_arg17) = (m ((c : Thread nD τ).loc main_arg17)) := by
  exact (W2_of_ne m ρ c main_arg17 (by decide)).trans (w1_arg17 m ρ c)
theorem w2_arg18 : W2 m ρ c (Proc.devRef .tc main_arg18) = (m ((c : Thread nD τ).loc main_arg18)) := by
  exact (W2_of_ne m ρ c main_arg18 (by decide)).trans (w1_arg18 m ρ c)
theorem w2_v1 : W2 m ρ c (Proc.devRef .tc main_v1) = rowI (m ((c : Thread nD τ).loc main_arg1)) := by
  exact (W2_of_ne m ρ c main_v1 (by decide)).trans (w1_v1 m ρ c)
theorem w2_v3 : W2 m ρ c (Proc.devRef .tc main_v3) = rowJ (m ((c : Thread nD τ).loc main_arg1)) := by
  exact (W2_of_ne m ρ c main_v3 (by decide)).trans (w1_v3 m ρ c)
theorem w2_v13 (H : RegionValues edgeG nodeG) : W2 m ρ c (Proc.devRef .tc main_v13) = (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6)))) := by
  refine (W2_arr m ρ c 6).trans ((H.h0 (V1 m ρ) c).trans ?_)
  show edgeG (W1 m ρ c (Proc.devRef .tc main_arg2)) (W1 m ρ c (Proc.devRef .tc main_v10)) (W1 m ρ c (Proc.devRef .tc main_arg3)) (W1 m ρ c (Proc.devRef .tc main_v11)) (W1 m ρ c (Proc.devRef .tc main_arg5)) (W1 m ρ c (Proc.devRef .tc main_v12)) = _
  rw [w1_arg2, w1_v10, w1_arg3, w1_v11, w1_arg5, w1_v12]
theorem w3_arg0 : W3 m ρ c (Proc.devRef .tc main_arg0) = (m ((c : Thread nD τ).loc main_arg0)) := by
  show StableHlo.after hostOps1 (W2 m ρ c) (Proc.devRef .tc _) = _
  after_results
  rw [w2_arg0]
theorem w3_arg2 : W3 m ρ c (Proc.devRef .tc main_arg2) = (m ((c : Thread nD τ).loc main_arg2)) := by
  show StableHlo.after hostOps1 (W2 m ρ c) (Proc.devRef .tc _) = _
  after_results
  rw [w2_arg2]
theorem w3_arg9 : W3 m ρ c (Proc.devRef .tc main_arg9) = (m ((c : Thread nD τ).loc main_arg9)) := by
  show StableHlo.after hostOps1 (W2 m ρ c) (Proc.devRef .tc _) = _
  after_results
  rw [w2_arg9]
theorem w3_arg11 : W3 m ρ c (Proc.devRef .tc main_arg11) = (m ((c : Thread nD τ).loc main_arg11)) := by
  show StableHlo.after hostOps1 (W2 m ρ c) (Proc.devRef .tc _) = _
  after_results
  rw [w2_arg11]
theorem w3_arg12 : W3 m ρ c (Proc.devRef .tc main_arg12) = (m ((c : Thread nD τ).loc main_arg12)) := by
  show StableHlo.after hostOps1 (W2 m ρ c) (Proc.devRef .tc _) = _
  after_results
  rw [w2_arg12]
theorem w3_arg13 : W3 m ρ c (Proc.devRef .tc main_arg13) = (m ((c : Thread nD τ).loc main_arg13)) := by
  show StableHlo.after hostOps1 (W2 m ρ c) (Proc.devRef .tc _) = _
  after_results
  rw [w2_arg13]
theorem w3_arg14 : W3 m ρ c (Proc.devRef .tc main_arg14) = (m ((c : Thread nD τ).loc main_arg14)) := by
  show StableHlo.after hostOps1 (W2 m ρ c) (Proc.devRef .tc _) = _
  after_results
  rw [w2_arg14]
theorem w3_arg15 : W3 m ρ c (Proc.devRef .tc main_arg15) = (m ((c : Thread nD τ).loc main_arg15)) := by
  show StableHlo.after hostOps1 (W2 m ρ c) (Proc.devRef .tc _) = _
  after_results
  rw [w2_arg15]
theorem w3_arg16 : W3 m ρ c (Proc.devRef .tc main_arg16) = (m ((c : Thread nD τ).loc main_arg16)) := by
  show StableHlo.after hostOps1 (W2 m ρ c) (Proc.devRef .tc _) = _
  after_results
  rw [w2_arg16]
theorem w3_arg17 : W3 m ρ c (Proc.devRef .tc main_arg17) = (m ((c : Thread nD τ).loc main_arg17)) := by
  show StableHlo.after hostOps1 (W2 m ρ c) (Proc.devRef .tc _) = _
  after_results
  rw [w2_arg17]
theorem w3_arg18 : W3 m ρ c (Proc.devRef .tc main_arg18) = (m ((c : Thread nD τ).loc main_arg18)) := by
  show StableHlo.after hostOps1 (W2 m ρ c) (Proc.devRef .tc _) = _
  after_results
  rw [w2_arg18]
theorem w3_v1 : W3 m ρ c (Proc.devRef .tc main_v1) = rowI (m ((c : Thread nD τ).loc main_arg1)) := by
  show StableHlo.after hostOps1 (W2 m ρ c) (Proc.devRef .tc _) = _
  after_results
  rw [w2_v1]
theorem w3_v3 : W3 m ρ c (Proc.devRef .tc main_v3) = rowJ (m ((c : Thread nD τ).loc main_arg1)) := by
  show StableHlo.after hostOps1 (W2 m ρ c) (Proc.devRef .tc _) = _
  after_results
  rw [w2_v3]
theorem w3_v16 (H : RegionValues edgeG nodeG) : W3 m ρ c (Proc.devRef .tc main_v16) = (summed (m ((c : Thread nD τ).loc main_arg1)) (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6))))) := by
  show StableHlo.after hostOps1 (W2 m ρ c) (Proc.devRef .tc _) = _
  after_results
  rw [w2_v1, w2_v13 edgeG nodeG m ρ c H]
  rfl
theorem w3_v17 : W3 m ρ c (Proc.devRef .tc main_v17) = topHalf (m ((c : Thread nD τ).loc main_arg7)) := by
  show StableHlo.after hostOps1 (W2 m ρ c) (Proc.devRef .tc _) = _
  after_results
  rw [w2_arg7]
  rfl
theorem w3_v18 : W3 m ρ c (Proc.devRef .tc main_v18) = botHalf (m ((c : Thread nD τ).loc main_arg7)) := by
  show StableHlo.after hostOps1 (W2 m ρ c) (Proc.devRef .tc _) = _
  after_results
  rw [w2_arg7]
  rfl
theorem w3_v19 : W3 m ρ c (Proc.devRef .tc main_v19) = rs (m ((c : Thread nD τ).loc main_arg8)) := by
  show StableHlo.after hostOps1 (W2 m ρ c) (Proc.devRef .tc _) = _
  after_results
  rw [w2_arg8]
  rfl
theorem w3_v20 : W3 m ρ c (Proc.devRef .tc main_v20) = rs (m ((c : Thread nD τ).loc main_arg10)) := by
  show StableHlo.after hostOps1 (W2 m ρ c) (Proc.devRef .tc _) = _
  after_results
  rw [w2_arg10]
  rfl
theorem w4_arg2 : W4 m ρ c (Proc.devRef .tc main_arg2) = (m ((c : Thread nD τ).loc main_arg2)) := by
  exact (W4_of_ne m ρ c main_arg2 (by decide)).trans (w3_arg2 m ρ c)
theorem w4_arg11 : W4 m ρ c (Proc.devRef .tc main_arg11) = (m ((c : Thread nD τ).loc main_arg11)) := by
  exact (W4_of_ne m ρ c main_arg11 (by decide)).trans (w3_arg11 m ρ c)
theorem w4_arg12 : W4 m ρ c (Proc.devRef .tc main_arg12) = (m ((c : Thread nD τ).loc main_arg12)) := by
  exact (W4_of_ne m ρ c main_arg12 (by decide)).trans (w3_arg12 m ρ c)
theorem w4_arg13 : W4 m ρ c (Proc.devRef .tc main_arg13) = (m ((c : Thread nD τ).loc main_arg13)) := by
  exact (W4_of_ne m ρ c main_arg13 (by decide)).trans (w3_arg13 m ρ c)
theorem w4_arg14 : W4 m ρ c (Proc.devRef .tc main_arg14) = (m ((c : Thread nD τ).loc main_arg14)) := by
  exact (W4_of_ne m ρ c main_arg14 (by decide)).trans (w3_arg14 m ρ c)
theorem w4_arg15 : W4 m ρ c (Proc.devRef .tc main_arg15) = (m ((c : Thread nD τ).loc main_arg15)) := by
  exact (W4_of_ne m ρ c main_arg15 (by decide)).trans (w3_arg15 m ρ c)
theorem w4_arg16 : W4 m ρ c (Proc.devRef .tc main_arg16) = (m ((c : Thread nD τ).loc main_arg16)) := by
  exact (W4_of_ne m ρ c main_arg16 (by decide)).trans (w3_arg16 m ρ c)
theorem w4_arg17 : W4 m ρ c (Proc.devRef .tc main_arg17) = (m ((c : Thread nD τ).loc main_arg17)) := by
  exact (W4_of_ne m ρ c main_arg17 (by decide)).trans (w3_arg17 m ρ c)
theorem w4_arg18 : W4 m ρ c (Proc.devRef .tc main_arg18) = (m ((c : Thread nD τ).loc main_arg18)) := by
  exact (W4_of_ne m ρ c main_arg18 (by decide)).trans (w3_arg18 m ρ c)
theorem w4_v1 : W4 m ρ c (Proc.devRef .tc main_v1) = rowI (m ((c : Thread nD τ).loc main_arg1)) := by
  exact (W4_of_ne m ρ c main_v1 (by decide)).trans (w3_v1 m ρ c)
theorem w4_v3 : W4 m ρ c (Proc.devRef .tc main_v3) = rowJ (m ((c : Thread nD τ).loc main_arg1)) := by
  exact (W4_of_ne m ρ c main_v3 (by decide)).trans (w3_v3 m ρ c)
theorem w4_v21 (H : RegionValues edgeG nodeG) : W4 m ρ c (Proc.devRef .tc main_v21) = (nodeG (m ((c : Thread nD τ).loc main_arg0)) (summed (m ((c : Thread nD τ).loc main_arg1)) (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6))))) (topHalf (m ((c : Thread nD τ).loc main_arg7))) (botHalf (m ((c : Thread nD τ).loc main_arg7))) (rs (m ((c : Thread nD τ).loc main_arg8))) (m ((c : Thread nD τ).loc main_arg9)) (rs (m ((c : Thread nD τ).loc main_arg10)))) := by
  refine (W4_arr m ρ c 7).trans ((H.h1 (V3 m ρ) c).trans ?_)
  show nodeG (W3 m ρ c (Proc.devRef .tc main_arg0)) (W3 m ρ c (Proc.devRef .tc main_v16)) (W3 m ρ c (Proc.devRef .tc main_v17)) (W3 m ρ c (Proc.devRef .tc main_v18)) (W3 m ρ c (Proc.devRef .tc main_v19)) (W3 m ρ c (Proc.devRef .tc main_arg9)) (W3 m ρ c (Proc.devRef .tc main_v20)) = _
  rw [w3_arg0, w3_v16 edgeG nodeG m ρ c H, w3_v17, w3_v18, w3_v19, w3_arg9, w3_v20]
theorem w5_arg2 : W5 m ρ c (Proc.devRef .tc main_arg2) = (m ((c : Thread nD τ).loc main_arg2)) := by
  show StableHlo.after hostOps2 (W4 m ρ c) (Proc.devRef .tc _) = _
  after_results
  rw [w4_arg2]
theorem w5_arg11 : W5 m ρ c (Proc.devRef .tc main_arg11) = (m ((c : Thread nD τ).loc main_arg11)) := by
  show StableHlo.after hostOps2 (W4 m ρ c) (Proc.devRef .tc _) = _
  after_results
  rw [w4_arg11]
theorem w5_arg13 : W5 m ρ c (Proc.devRef .tc main_arg13) = (m ((c : Thread nD τ).loc main_arg13)) := by
  show StableHlo.after hostOps2 (W4 m ρ c) (Proc.devRef .tc _) = _
  after_results
  rw [w4_arg13]
theorem w5_arg15 : W5 m ρ c (Proc.devRef .tc main_arg15) = (m ((c : Thread nD τ).loc main_arg15)) := by
  show StableHlo.after hostOps2 (W4 m ρ c) (Proc.devRef .tc _) = _
  after_results
  rw [w4_arg15]
theorem w5_arg16 : W5 m ρ c (Proc.devRef .tc main_arg16) = (m ((c : Thread nD τ).loc main_arg16)) := by
  show StableHlo.after hostOps2 (W4 m ρ c) (Proc.devRef .tc _) = _
  after_results
  rw [w4_arg16]
theorem w5_arg17 : W5 m ρ c (Proc.devRef .tc main_arg17) = (m ((c : Thread nD τ).loc main_arg17)) := by
  show StableHlo.after hostOps2 (W4 m ρ c) (Proc.devRef .tc _) = _
  after_results
  rw [w4_arg17]
theorem w5_arg18 : W5 m ρ c (Proc.devRef .tc main_arg18) = (m ((c : Thread nD τ).loc main_arg18)) := by
  show StableHlo.after hostOps2 (W4 m ρ c) (Proc.devRef .tc _) = _
  after_results
  rw [w4_arg18]
theorem w5_v1 : W5 m ρ c (Proc.devRef .tc main_v1) = rowI (m ((c : Thread nD τ).loc main_arg1)) := by
  show StableHlo.after hostOps2 (W4 m ρ c) (Proc.devRef .tc _) = _
  after_results
  rw [w4_v1]
theorem w5_v21 (H : RegionValues edgeG nodeG) : W5 m ρ c (Proc.devRef .tc main_v21) = (nodeG (m ((c : Thread nD τ).loc main_arg0)) (summed (m ((c : Thread nD τ).loc main_arg1)) (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6))))) (topHalf (m ((c : Thread nD τ).loc main_arg7))) (botHalf (m ((c : Thread nD τ).loc main_arg7))) (rs (m ((c : Thread nD τ).loc main_arg8))) (m ((c : Thread nD τ).loc main_arg9)) (rs (m ((c : Thread nD τ).loc main_arg10)))) := by
  show StableHlo.after hostOps2 (W4 m ρ c) (Proc.devRef .tc _) = _
  after_results
  rw [w4_v21 edgeG nodeG m ρ c H]
theorem w5_v28 (H : RegionValues edgeG nodeG) : W5 m ρ c (Proc.devRef .tc main_v28) = gathered (nodeG (m ((c : Thread nD τ).loc main_arg0)) (summed (m ((c : Thread nD τ).loc main_arg1)) (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6))))) (topHalf (m ((c : Thread nD τ).loc main_arg7))) (botHalf (m ((c : Thread nD τ).loc main_arg7))) (rs (m ((c : Thread nD τ).loc main_arg8))) (m ((c : Thread nD τ).loc main_arg9)) (rs (m ((c : Thread nD τ).loc main_arg10)))) (m ((c : Thread nD τ).loc main_arg1)) := by
  show StableHlo.after hostOps2 (W4 m ρ c) (Proc.devRef .tc _) = _
  after_results
  rw [w4_v3]
  exact congrArg (fun X => gathered X (m ((c : Thread nD τ).loc main_arg1))) (w4_v21 edgeG nodeG m ρ c H)
theorem w5_v29 : W5 m ρ c (Proc.devRef .tc main_v29) = rs (m ((c : Thread nD τ).loc main_arg12)) := by
  show StableHlo.after hostOps2 (W4 m ρ c) (Proc.devRef .tc _) = _
  after_results
  rw [w4_arg12]
  rfl
theorem w5_v30 : W5 m ρ c (Proc.devRef .tc main_v30) = rs (m ((c : Thread nD τ).loc main_arg14)) := by
  show StableHlo.after hostOps2 (W4 m ρ c) (Proc.devRef .tc _) = _
  after_results
  rw [w4_arg14]
  rfl
theorem w6_arg15 : W6 m ρ c (Proc.devRef .tc main_arg15) = (m ((c : Thread nD τ).loc main_arg15)) := by
  exact (W6_of_ne m ρ c main_arg15 (by decide)).trans (w5_arg15 m ρ c)
theorem w6_arg16 : W6 m ρ c (Proc.devRef .tc main_arg16) = (m ((c : Thread nD τ).loc main_arg16)) := by
  exact (W6_of_ne m ρ c main_arg16 (by decide)).trans (w5_arg16 m ρ c)
theorem w6_arg17 : W6 m ρ c (Proc.devRef .tc main_arg17) = (m ((c : Thread nD τ).loc main_arg17)) := by
  exact (W6_of_ne m ρ c main_arg17 (by decide)).trans (w5_arg17 m ρ c)
theorem w6_arg18 : W6 m ρ c (Proc.devRef .tc main_arg18) = (m ((c : Thread nD τ).loc main_arg18)) := by
  exact (W6_of_ne m ρ c main_arg18 (by decide)).trans (w5_arg18 m ρ c)
theorem w6_v1 : W6 m ρ c (Proc.devRef .tc main_v1) = rowI (m ((c : Thread nD τ).loc main_arg1)) := by
  exact (W6_of_ne m ρ c main_v1 (by decide)).trans (w5_v1 m ρ c)
theorem w6_v21 (H : RegionValues edgeG nodeG) : W6 m ρ c (Proc.devRef .tc main_v21) = (nodeG (m ((c : Thread nD τ).loc main_arg0)) (summed (m ((c : Thread nD τ).loc main_arg1)) (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6))))) (topHalf (m ((c : Thread nD τ).loc main_arg7))) (botHalf (m ((c : Thread nD τ).loc main_arg7))) (rs (m ((c : Thread nD τ).loc main_arg8))) (m ((c : Thread nD τ).loc main_arg9)) (rs (m ((c : Thread nD τ).loc main_arg10)))) :=
  (W6_of_ne m ρ c main_v21 (by decide)).trans (w5_v21 edgeG nodeG m ρ c H)
theorem w6_v31 (H : RegionValues edgeG nodeG) : W6 m ρ c (Proc.devRef .tc main_v31) = (edgeG (m ((c : Thread nD τ).loc main_arg2)) (gathered (nodeG (m ((c : Thread nD τ).loc main_arg0)) (summed (m ((c : Thread nD τ).loc main_arg1)) (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6))))) (topHalf (m ((c : Thread nD τ).loc main_arg7))) (botHalf (m ((c : Thread nD τ).loc main_arg7))) (rs (m ((c : Thread nD τ).loc main_arg8))) (m ((c : Thread nD τ).loc main_arg9)) (rs (m ((c : Thread nD τ).loc main_arg10)))) (m ((c : Thread nD τ).loc main_arg1))) (m ((c : Thread nD τ).loc main_arg11)) (rs (m ((c : Thread nD τ).loc main_arg12))) (m ((c : Thread nD τ).loc main_arg13)) (rs (m ((c : Thread nD τ).loc main_arg14)))) := by
  refine (W6_arr m ρ c 6).trans ((H.h2 (V5 m ρ) c).trans ?_)
  show edgeG (W5 m ρ c (Proc.devRef .tc main_arg2)) (W5 m ρ c (Proc.devRef .tc main_v28)) (W5 m ρ c (Proc.devRef .tc main_arg11)) (W5 m ρ c (Proc.devRef .tc main_v29)) (W5 m ρ c (Proc.devRef .tc main_arg13)) (W5 m ρ c (Proc.devRef .tc main_v30)) = _
  rw [w5_arg2, w5_v28 edgeG nodeG m ρ c H, w5_arg11, w5_v29, w5_arg13, w5_v30]
theorem w7_arg17 : W7 m ρ c (Proc.devRef .tc main_arg17) = (m ((c : Thread nD τ).loc main_arg17)) := by
  show StableHlo.after hostOps3 (W6 m ρ c) (Proc.devRef .tc _) = _
  after_results
  rw [w6_arg17]
theorem w7_v21 (H : RegionValues edgeG nodeG) : W7 m ρ c (Proc.devRef .tc main_v21) = (nodeG (m ((c : Thread nD τ).loc main_arg0)) (summed (m ((c : Thread nD τ).loc main_arg1)) (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6))))) (topHalf (m ((c : Thread nD τ).loc main_arg7))) (botHalf (m ((c : Thread nD τ).loc main_arg7))) (rs (m ((c : Thread nD τ).loc main_arg8))) (m ((c : Thread nD τ).loc main_arg9)) (rs (m ((c : Thread nD τ).loc main_arg10)))) := by
  show StableHlo.after hostOps3 (W6 m ρ c) (Proc.devRef .tc _) = _
  after_results
  rw [w6_v21 edgeG nodeG m ρ c H]
theorem w7_v34 (H : RegionValues edgeG nodeG) : W7 m ρ c (Proc.devRef .tc main_v34) = (summed (m ((c : Thread nD τ).loc main_arg1)) (edgeG (m ((c : Thread nD τ).loc main_arg2)) (gathered (nodeG (m ((c : Thread nD τ).loc main_arg0)) (summed (m ((c : Thread nD τ).loc main_arg1)) (edgeG (m ((c : Thread nD τ).loc main_arg2)) (gathered (m ((c : Thread nD τ).loc main_arg0)) (m ((c : Thread nD τ).loc main_arg1))) (m ((c : Thread nD τ).loc main_arg3)) (rs (m ((c : Thread nD τ).loc main_arg4))) (m ((c : Thread nD τ).loc main_arg5)) (rs (m ((c : Thread nD τ).loc main_arg6))))) (topHalf (m ((c : Thread nD τ).loc main_arg7))) (botHalf (m ((c : Thread nD τ).loc main_arg7))) (rs (m ((c : Thread nD τ).loc main_arg8))) (m ((c : Thread nD τ).loc main_arg9)) (rs (m ((c : Thread nD τ).loc main_arg10)))) (m ((c : Thread nD τ).loc main_arg1))) (m ((c : Thread nD τ).loc main_arg11)) (rs (m ((c : Thread nD τ).loc main_arg12))) (m ((c : Thread nD τ).loc main_arg13)) (rs (m ((c : Thread nD τ).loc main_arg14))))) := by
  show StableHlo.after hostOps3 (W6 m ρ c) (Proc.devRef .tc _) = _
  after_results
  rw [w6_v1, w6_v31 edgeG nodeG m ρ c H]
  rfl
theorem w7_v35 : W7 m ρ c (Proc.devRef .tc main_v35) = topHalf (m ((c : Thread nD τ).loc main_arg15)) := by
  show StableHlo.after hostOps3 (W6 m ρ c) (Proc.devRef .tc _) = _
  after_results
  rw [w6_arg15]
  rfl
theorem w7_v36 : W7 m ρ c (Proc.devRef .tc main_v36) = botHalf (m ((c : Thread nD τ).loc main_arg15)) := by
  show StableHlo.after hostOps3 (W6 m ρ c) (Proc.devRef .tc _) = _
  after_results
  rw [w6_arg15]
  rfl
theorem w7_v37 : W7 m ρ c (Proc.devRef .tc main_v37) = rs (m ((c : Thread nD τ).loc main_arg16)) := by
  show StableHlo.after hostOps3 (W6 m ρ c) (Proc.devRef .tc _) = _
  after_results
  rw [w6_arg16]
  rfl
theorem w7_v38 : W7 m ρ c (Proc.devRef .tc main_v38) = rs (m ((c : Thread nD τ).loc main_arg18)) := by
  show StableHlo.after hostOps3 (W6 m ρ c) (Proc.devRef .tc _) = _
  after_results
  rw [w6_arg18]
  rfl
/-- The result array at the return: the second layer applied to the first layer's result. -/
theorem w8_v39 (H : RegionValues edgeG nodeG) : W8 m ρ c (Proc.devRef .tc main_v39) = (layer edgeG nodeG (layer edgeG nodeG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  refine (W8_arr m ρ c 7).trans ((H.h3 (V7 m ρ) c).trans ?_)
  show nodeG (W7 m ρ c (Proc.devRef .tc main_v21)) (W7 m ρ c (Proc.devRef .tc main_v34)) (W7 m ρ c (Proc.devRef .tc main_v35)) (W7 m ρ c (Proc.devRef .tc main_v36)) (W7 m ρ c (Proc.devRef .tc main_v37)) (W7 m ρ c (Proc.devRef .tc main_arg17)) (W7 m ρ c (Proc.devRef .tc main_v38)) = _
  rw [w7_v21 edgeG nodeG m ρ c H, w7_v34 edgeG nodeG m ρ c H, w7_v35, w7_v36, w7_v37, w7_arg17, w7_v38]
  rfl

end Chain

end Cert.KernelIdeal.KV

end
-- ==== Proof.RefLayers.lean ====
/-
  The reference's result as two applications of ONE layer.

  The reference computes, twice, with the second layer's weights in place of the first's,
      x ↦ x + (relu([x, agg] · W₁ + b₁) · W₂ + b₂),   agg = the sum, over the edges e with destination i, of msg e,
      msg e = relu(attr e · V₁ + c₁) · V₂ + c₂ + x (source e),
  where the destinations are row 0 and the sources row 1 of the edge list, a negative source counted from the end. Its
  generated run states the result as one closed term of the argument arrays; that term is the layer applied to the layer.
-/
import proofs.«112174_j9062380995258_1_alg».proof.Proof.Gen.ReferenceIdeal.Run

noncomputable section

namespace Cert.ReferenceIdeal.RefV

open Cert.ReferenceIdeal Cert.ReferenceIdeal.Gen Cert.ReferenceIdeal.Value Idealize.ShloMosaic Idealize.ShloMosaic.TcCoe Idealize.SL.Sem

variable {F : FTy → Type} [FloatOps F]

/-- Row 0 of the edge list: each edge's destination node. -/
def rowI (ei : (⟨S2x320000, .i32⟩ : BufTy).Contents (Elt F)) : (⟨S320000, .i32⟩ : BufTy).Contents (Elt F) :=
  shapeCast _ (extractStridedSlice S1x320000 ![0, 0] ei slices_S2x320000_S1x320000_0_0) shapeCasts_S1x320000_S320000

/-- Row 1 of the edge list: each edge's source node. -/
def rowJ (ei : (⟨S2x320000, .i32⟩ : BufTy).Contents (Elt F)) : (⟨S320000, .i32⟩ : BufTy).Contents (Elt F) :=
  shapeCast _ (extractStridedSlice S1x320000 ![1, 0] ei slices_S2x320000_S1x320000_1_0) shapeCasts_S1x320000_S320000

/-- The gather's start rows: the sources, a negative one counted from the end of the 50000 nodes. -/
def startJ (ei : (⟨S2x320000, .i32⟩ : BufTy).Contents (Elt F)) : (⟨S320000x1, .i32⟩ : BufTy).Contents (Elt F) :=
  broadcastInDim S320000x1 ![0] bcast_S320000_S320000x1_0
    (select (cmpi .slt (rowJ (F := F) ei) (broadcastInDim S320000 ![] bcast_S_S320000 (constantI S_ 32 0#32)))
      (addi (rowJ (F := F) ei) (broadcastInDim S320000 ![] bcast_S_S320000 (constantI S_ 32 50000#32))) (rowJ (F := F) ei))

/-- The scatter's start rows: the destinations. -/
def startI (ei : (⟨S2x320000, .i32⟩ : BufTy).Contents (Elt F)) : (⟨S320000x1, .i32⟩ : BufTy).Contents (Elt F) :=
  broadcastInDim S320000x1 ![0] bcast_S320000_S320000x1_0 (rowI (F := F) ei)

/-- Each edge's source row of the node features. -/
def gathered (x : (⟨S50000x256, .f32⟩ : BufTy).Contents (Elt F)) (ei : (⟨S2x320000, .i32⟩ : BufTy).Contents (Elt F)) : (⟨S320000x256, .f32⟩ : BufTy).Contents (Elt F) :=
  Host.gather gather_S50000x256_S320000x1_S320000x256_1_0_n_n_0_1_1256 x (startJ (F := F) ei)

/-- The messages summed at their destinations, from zero. -/
def summed (ei : (⟨S2x320000, .i32⟩ : BufTy).Contents (Elt F)) (u : (⟨S320000x256, .f32⟩ : BufTy).Contents (Elt F)) : (⟨S50000x256, .f32⟩ : BufTy).Contents (Elt F) :=
  Host.scatterAdd scatter_S50000x256_S320000x1_S320000x256_1_0_0_1
    (broadcastInDim S50000x256 ![] bcast_S_S50000x256 (constant S_ .f32 0x00000000#32)) (startI (F := F) ei) u

/-- An edge's message: the two-layer map of its attribute, plus its source's features `g`. -/
def edgeTerm (ea : (⟨S320000x1, .f32⟩ : BufTy).Contents (Elt F)) (g : (⟨S320000x256, .f32⟩ : BufTy).Contents (Elt F)) (eW1 : (⟨S1x256, .f32⟩ : BufTy).Contents (Elt F))
    (eb1 : (⟨S256, .f32⟩ : BufTy).Contents (Elt F)) (eW2 : (⟨S256x256, .f32⟩ : BufTy).Contents (Elt F)) (eb2 : (⟨S256, .f32⟩ : BufTy).Contents (Elt F)) : (⟨S320000x256, .f32⟩ : BufTy).Contents (Elt F) :=
  addf (addf (Host.dotGeneral dot_S320000x256_S256x256_S320000x256_1_0_0_1_n_n none
      (maximumf (addf (Host.dotGeneral dot_S320000x1_S1x256_S320000x256_1_0_0_1_n_n none ea eW1)
          (broadcastInDim S320000x256 ![0, 1] bcast_S1x256_S320000x256_0_1 (broadcastInDim S1x256 ![1] bcast_S256_S1x256_1 eb1)))
        (broadcastInDim S320000x256 ![] bcast_S_S320000x256 (constant S_ .f32 0x00000000#32))) eW2)
    (broadcastInDim S320000x256 ![0, 1] bcast_S1x256_S320000x256_0_1 (broadcastInDim S1x256 ![1] bcast_S256_S1x256_1 eb2))) g

/-- A node's update: its features plus the two-layer map of its features beside its summed messages `a`. -/
def nodeTerm (x a : (⟨S50000x256, .f32⟩ : BufTy).Contents (Elt F)) (W : (⟨S512x256, .f32⟩ : BufTy).Contents (Elt F)) (nb1 : (⟨S256, .f32⟩ : BufTy).Contents (Elt F))
    (W2 : (⟨S256x256, .f32⟩ : BufTy).Contents (Elt F)) (nb2 : (⟨S256, .f32⟩ : BufTy).Contents (Elt F)) : (⟨S50000x256, .f32⟩ : BufTy).Contents (Elt F) :=
  addf x (addf (Host.dotGeneral dot_S50000x256_S256x256_S50000x256_1_0_0_1_n_n none
      (maximumf (addf (Host.dotGeneral dot_S50000x512_S512x256_S50000x256_1_0_0_1_n_n none
            (concatenate S50000x512 1 [⟨S50000x256, x⟩, ⟨S50000x256, a⟩] concatenates_S50000x256_S50000x256_S50000x512_d1) W)
          (broadcastInDim S50000x256 ![0, 1] bcast_S1x256_S50000x256_0_1 (broadcastInDim S1x256 ![1] bcast_S256_S1x256_1 nb1)))
        (broadcastInDim S50000x256 ![] bcast_S_S50000x256 (constant S_ .f32 0x00000000#32))) W2)
    (broadcastInDim S50000x256 ![0, 1] bcast_S1x256_S50000x256_0_1 (broadcastInDim S1x256 ![1] bcast_S256_S1x256_1 nb2)))

/-- One layer of the reference. -/
def layer (x : (⟨S50000x256, .f32⟩ : BufTy).Contents (Elt F)) (ei : (⟨S2x320000, .i32⟩ : BufTy).Contents (Elt F)) (ea : (⟨S320000x1, .f32⟩ : BufTy).Contents (Elt F))
    (eW1 : (⟨S1x256, .f32⟩ : BufTy).Contents (Elt F)) (eb1 : (⟨S256, .f32⟩ : BufTy).Contents (Elt F)) (eW2 : (⟨S256x256, .f32⟩ : BufTy).Contents (Elt F)) (eb2 : (⟨S256, .f32⟩ : BufTy).Contents (Elt F))
    (nW1 : (⟨S512x256, .f32⟩ : BufTy).Contents (Elt F)) (nb1 : (⟨S256, .f32⟩ : BufTy).Contents (Elt F)) (nW2 : (⟨S256x256, .f32⟩ : BufTy).Contents (Elt F)) (nb2 : (⟨S256, .f32⟩ : BufTy).Contents (Elt F)) :
    (⟨S50000x256, .f32⟩ : BufTy).Contents (Elt F) :=
  nodeTerm (F := F) x (summed (F := F) ei (edgeTerm (F := F) ea (gathered (F := F) x ei) eW1 eb1 eW2 eb2)) nW1 nb1 nW2 nb2

set_option maxRecDepth 16384 in
/-- The reference's result is the second layer applied to the first layer's result. -/
theorem res_eq (m : (ℓ : Loc nD τ sig) → Buf (Elt F) ℓ) (c : Dev nD) :
    res_main_v69 (F := F) m c
      = layer (F := F)
          (layer (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)))
          (m ((c.tc : Thread nD τ).loc main_arg1)) (m ((c.tc : Thread nD τ).loc main_arg2))
          (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16))
          (m ((c.tc : Thread nD τ).loc main_arg17)) (m ((c.tc : Thread nD τ).loc main_arg18)) := by
  unfold res_main_v69 layer nodeTerm summed edgeTerm gathered startI startJ rowI rowJ
  rfl

end Cert.ReferenceIdeal.RefV

end
-- ==== Proof.EdgeSpec.lean ====
/-
  The edge-message layer as one function of its arrays.

  For 320000 edges, each with one attribute, and a gathered node row of 256 numbers per edge, the layer's value at
  edge e, column c is

      sum over d of  max (attr e * w1 d + b1 d, 0) * w2 (d, c)   +   b2 c   +   gathered (e, c)

  over the extended reals: a first layer from one attribute to 256 hidden units, clipped below at zero, a second
  layer from the 256 hidden units to 256 columns, and the gathered row added on.
-/
import Idealize.ShloMosaic.PureOps.Ideal
import Idealize.ShloMosaic.Lib.ValueIdx

noncomputable section

open scoped BigOperators

namespace Cert.EdgeV

open Idealize.ShloMosaic Idealize.ShloMosaic.ValueIdx

/-- The layer's value at every edge and column, from the attributes `ea`, the gathered rows `g`, the first layer's
    weight row `w1` and bias row `b1`, the second layer's weight `w2` and bias row `b2`. -/
def edgeG (ea : (⟨2, ![320000, 1]⟩ : Shape).Idx → EReal) (g : (⟨2, ![320000, 256]⟩ : Shape).Idx → EReal)
    (w1 b1 : (⟨2, ![1, 256]⟩ : Shape).Idx → EReal) (w2 : (⟨2, ![256, 256]⟩ : Shape).Idx → EReal)
    (b2 : (⟨2, ![1, 256]⟩ : Shape).Idx → EReal) : (⟨2, ![320000, 256]⟩ : Shape).Idx → EReal :=
  fun i => (∑ d : Fin 256, max (ea (ix2 (i 0) 0) * w1 (ix2 0 d) + b1 (ix2 0 d)) (Ideal.ofBits .f32 0x00000000#32) * w2 (ix2 d (i 1)))
    + b2 (ix2 0 (i 1)) + g i

/-- The layer's value at edge `e`, column `c`. -/
theorem edgeG_apply (ea : (⟨2, ![320000, 1]⟩ : Shape).Idx → EReal) (g : (⟨2, ![320000, 256]⟩ : Shape).Idx → EReal)
    (w1 b1 : (⟨2, ![1, 256]⟩ : Shape).Idx → EReal) (w2 : (⟨2, ![256, 256]⟩ : Shape).Idx → EReal)
    (b2 : (⟨2, ![1, 256]⟩ : Shape).Idx → EReal) (e : Fin 320000) (c : Fin 256) :
    edgeG ea g w1 b1 w2 b2 (ix2 e c)
      = (∑ d : Fin 256, max (ea (ix2 e 0) * w1 (ix2 0 d) + b1 (ix2 0 d)) (Ideal.ofBits .f32 0x00000000#32) * w2 (ix2 d c))
        + b2 (ix2 0 c) + g (ix2 e c) := rfl

end Cert.EdgeV

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.EdgePayload.lean ====
/-
  The edge-message body's stored value, read entry by entry.

  The body takes a block of 4000 edge attributes (one number per edge), the first layer's weight row and bias row
  (256 numbers each), the second layer's 256 x 256 weight and its bias row, and the block of 4000 gathered node
  rows. At the exact extended-real values the value it stores at row p, column q is

      sum over d of  max (attr p * w1 d + b1 d, 0) * w2 (d, q)   +   b2 q   +   gathered (p, q):

  the broadcasts of the column and of the rows read their one entry, the rounding of the product's operands to the
  narrower format is the identity, and the product into the zero accumulator is the plain finite sum.
-/
import proofs.«112174_j9062380995258_1_alg».proof.Proof.Gen.KernelIdeal.Skeleton
import proofs.«112174_j9062380995258_1_alg».proof.Proof.LibMatmulRead
import proofs.«112174_j9062380995258_1_alg».proof.Proof.LibColumnLayout
import Idealize.ShloMosaic.Lib.ValueLayout

noncomputable section

open scoped BigOperators

namespace Cert.EdgeV

open Idealize.ShloMosaic Idealize.ShloMosaic.ValueIdx Cert.KernelIdeal

/-- The first layer at row `p`, hidden unit `d`: the attribute times the weight plus the bias, clipped below at zero. -/
theorem hidden_apply (v0 : Vec Ideal S4000x1 .f32) (v1 v2 : Vec Ideal S1x256 .f32)
    (h0 : S4000x1.Broadcasts S4000x256) (h1 : S1x256.Broadcasts S4000x256) (hc : S1x256.ShapeCasts S1x256)
    (p : Fin 4000) (d : Fin 256) :
    maximumf (addf (mulf (broadcastTo S4000x256 v0 h0) (broadcastTo S4000x256 v1 h1))
        (broadcastTo S4000x256 (shapeCast S1x256 v2 hc) h1))
      (broadcast S4000x256 (Scalar.ofBits (F := Ideal) .f32 0x00000000#32)) (ix2 p d)
      = max (v0 (ix2 p 0) * v1 (ix2 0 d) + v2 (ix2 0 d)) (Ideal.ofBits .f32 0x00000000#32) := by
  refine (maximumf_apply _ _ _).trans ?_
  refine congrArg₂ max ?_ rfl
  refine (addf_apply _ _ _).trans ?_
  refine congrArg₂ (· + ·) ((mulf_apply _ _ _).trans (congrArg₂ (· * ·) ?_ ?_)) ?_
  · exact broadcastTo_a1_ab_apply v0 h0 p d
  · exact broadcastTo_1b_ab_apply v1 h1 p d
  · exact (broadcastTo_1b_ab_apply _ h1 p d).trans (congrFun (shapeCast_self v2 hc) _)

/-- The value the body of region 0 stores, at row `p` and column `q` of its block. -/
theorem k0_pay1_apply (v0 : Vec Ideal S4000x1 .f32) (v1 v2 : Vec Ideal S1x256 .f32) (v11 : Vec Ideal S256x256 .f32)
    (v12 : Vec Ideal S1x256 .f32) (v19 : Vec Ideal S4000x256 .f32) (p : Fin 4000) (q : Fin 256) :
    Cert.KernelIdeal.Gen.k0_pay1 (F := Ideal) v0 v1 v2 v11 v12 v19 (ix2 p q)
      = (∑ d : Fin 256, max (v0 (ix2 p 0) * v1 (ix2 0 d) + v2 (ix2 0 d)) (Ideal.ofBits .f32 0x00000000#32) * v11 (ix2 d q))
        + v12 (ix2 0 q) + v19 (ix2 p q) := by
  unfold Cert.KernelIdeal.Gen.k0_pay1
  refine (addf_apply _ _ _).trans ?_
  refine congrArg₂ (· + ·) ((addf_apply _ _ _).trans (congrArg₂ (· + ·) ?_ ?_)) ?_
  · refine (matmul_ix2_apply dot_S4000x256_S256x256_S4000x256_1_0_0_1_n_n rfl rfl rfl rfl rfl rfl none _ _ p q).trans ?_
    refine Finset.sum_congr rfl fun d _ => ?_
    refine congrArg₂ (· * ·) ?_ rfl
    exact hidden_apply v0 v1 v2 _ _ _ p d
  · exact (broadcastTo_1b_ab_apply _ _ p q).trans (congrFun (shapeCast_self v12 _) _)
  · exact congrFun (shapeCast_self v19 _) _

/-- The two edge-message bodies are the same function of the blocks they read. -/
theorem k2_pay1_eq_k0_pay1 (v0 : Vec Ideal S4000x1 .f32) (v1 v2 : Vec Ideal S1x256 .f32) (v11 : Vec Ideal S256x256 .f32)
    (v12 : Vec Ideal S1x256 .f32) (v19 : Vec Ideal S4000x256 .f32) :
    Cert.KernelIdeal.Gen.k2_pay1 (F := Ideal) v0 v1 v2 v11 v12 v19
      = Cert.KernelIdeal.Gen.k0_pay1 (F := Ideal) v0 v1 v2 v11 v12 v19 := rfl

/-- The value the body of region 2 stores, at row `p` and column `q` of its block. -/
theorem k2_pay1_apply (v0 : Vec Ideal S4000x1 .f32) (v1 v2 : Vec Ideal S1x256 .f32) (v11 : Vec Ideal S256x256 .f32)
    (v12 : Vec Ideal S1x256 .f32) (v19 : Vec Ideal S4000x256 .f32) (p : Fin 4000) (q : Fin 256) :
    Cert.KernelIdeal.Gen.k2_pay1 (F := Ideal) v0 v1 v2 v11 v12 v19 (ix2 p q)
      = (∑ d : Fin 256, max (v0 (ix2 p 0) * v1 (ix2 0 d) + v2 (ix2 0 d)) (Ideal.ofBits .f32 0x00000000#32) * v11 (ix2 d q))
        + v12 (ix2 0 q) + v19 (ix2 p q) :=
  (congrFun (k2_pay1_eq_k0_pay1 v0 v1 v2 v11 v12 v19) (ix2 p q)).trans (k0_pay1_apply v0 v1 v2 v11 v12 v19 p q)

end Cert.EdgeV

end
-- ==== Proof.EdgeRegion.lean ====
/-
  From blocks to the array: what each edge-message region leaves in its output array.

  A region runs its body at 80 grid points. At point t the body reads rows 4000 t … 4000 t + 3999 of the edge attributes and
  of the gathered node rows, and the four parameter arrays whole, and its stored block is written back to the same rows
  of the output. Since the body's value at an entry is the layer's formula of the entries it read, what point t writes
  back is block t of ONE function of the region's entry arrays — the layer's function —, and since the 80 blocks tile
  the 320000 rows, the output array ends holding that function.
-/
import proofs.«112174_j9062380995258_1_alg».proof.Proof.Gen.KernelIdeal.Frame
import proofs.«112174_j9062380995258_1_alg».proof.Proof.EdgeSpec
import proofs.«112174_j9062380995258_1_alg».proof.Proof.EdgePayload
import Idealize.ShloMosaic.Lib.Pipeline.Value

set_option maxRecDepth 16384

noncomputable section

open scoped BigOperators

namespace Cert.EdgeV

open Idealize.ShloMosaic Idealize.ShloMosaic.ValueIdx Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-- ONE ENTRY OF ONE BLOCK. A body whose stored value at row `p`, column `q` of its block is the layer's formula of
    the blocks it read (`hpay`), run on blocks that are rows `4000 T …` of the attributes and of the gathered rows
    and the parameters whole, stores at `(p, q)` the layer's function of the arrays at row `4000 T + p`, column `q`. -/
theorem block_point
    {pay : Vec Ideal S4000x1 .f32 → Vec Ideal S1x256 .f32 → Vec Ideal S1x256 .f32 → Vec Ideal S256x256 .f32 →
      Vec Ideal S1x256 .f32 → Vec Ideal S4000x256 .f32 → FVec Ideal S4000x256 .f32}
    (hpay : ∀ (v0 : Vec Ideal S4000x1 .f32) (v1 v2 : Vec Ideal S1x256 .f32) (v11 : Vec Ideal S256x256 .f32)
      (v12 : Vec Ideal S1x256 .f32) (v19 : Vec Ideal S4000x256 .f32) (p : Fin 4000) (q : Fin 256),
      pay v0 v1 v2 v11 v12 v19 (ix2 p q)
        = (∑ d : Fin 256, max (v0 (ix2 p 0) * v1 (ix2 0 d) + v2 (ix2 0 d)) (Ideal.ofBits .f32 0x00000000#32) * v11 (ix2 d q))
          + v12 (ix2 0 q) + v19 (ix2 p q))
    (ea : S320000x1.Idx → EReal) (g : S320000x256.Idx → EReal) (w1 b1 : S1x256.Idx → EReal)
    (w2 : S256x256.Idx → EReal) (b2 : S1x256.Idx → EReal)
    (x0 : Vec Ideal S4000x1 .f32) (x1 : Vec Ideal S4000x256 .f32) (x2 x3 : Vec Ideal S1x256 .f32)
    (x4 : Vec Ideal S256x256 .f32) (x5 : Vec Ideal S1x256 .f32) (T : ℕ)
    (h0 : ∀ (p : Fin 4000) (k : S320000x1.Idx), (k 0).val = T * 4000 + p.val → x0 (ix2 p 0) = ea k)
    (h1 : ∀ (p : Fin 4000) (q : Fin 256) (k : S320000x256.Idx), (k 0).val = T * 4000 + p.val → (k 1).val = q.val →
      x1 (ix2 p q) = g k)
    (h2 : x2 = w1) (h3 : x3 = b1) (h4 : x4 = w2) (h5 : x5 = b2)
    (y : S4000x256.Idx) (i : S320000x256.Idx) (hi0 : (i 0).val = T * 4000 + (y 0).val) (hi1 : (i 1).val = (y 1).val) :
    pay x0 x2 x3 x4 x5 x1 y = edgeG ea g w1 b1 w2 b2 i := by
  subst h2 h3 h4 h5
  obtain ⟨p, q, rfl⟩ : ∃ (p : Fin 4000) (q : Fin 256), y = ix2 p q := ⟨y 0, y 1, eq_ix2 y⟩
  obtain ⟨e, c', rfl⟩ : ∃ (e : Fin 320000) (c' : Fin 256), i = ix2 e c' := ⟨i 0, i 1, eq_ix2 i⟩
  obtain rfl : c' = q := Fin.ext hi1
  refine (hpay x0 x2 x3 x4 x5 x1 p c').trans ((edgeG_apply ea g x2 x3 x4 x5 e c').trans ?_).symm
  rw [h0 p (ix2 e 0) hi0, h1 p c' (ix2 e c') hi0 rfl]

/-! ## Region 0 -/

/-- The printed index maps of region 0, decided over its 80 grid points: the edge-attribute window, the gathered-rows
    window and the output window are all on block `t` of the rows at point `t`; the four parameter windows stay on
    block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section

variable (V : (c : Dev nD) → (b : Ref sig .tc) → Buf (Elt Ideal) ((c : Thread nD τ).loc b))

/-- WHAT POINT `t` WRITES BACK is block `t` of the layer's function of the arrays as the region finds them: rows
    `4000 t … 4000 t + 3999` of the output read the same rows of the attributes and of the gathered rows, and the
    parameters whole. -/
theorem flushed0_eq (c : Dev nD) (t : Fin cfg0.N) :
    (dat0 V c).flushed 6 t = ((cfg0.win 6).blk t).view.read (Elt Ideal)
      (edgeG (V c main_arg2) (V c main_v10) (V c main_arg3) (V c main_v11) (V c main_arg5) (V c main_v12)) := by
  show (cfg0.win 6).cut (grid0.coords t) ((dat0 V c).after 6 t) = _
  rw [after0_6]
  unfold out0_6
  rw [View.canon_unit_zero hz]
  simp only [View.ld_unit_zero (S := S4000x1) hz, View.ld_unit_zero (S := S1x256) hz,
    View.ld_unit_zero (S := S256x256) hz, View.ld_unit_zero (S := S4000x256) hz]
  obtain ⟨e00, e01, e10, e11, e20, e21, e30, e31, e40, e41, e50, e51, e60, e61⟩ := idx_facts0 t
  funext j
  show Gen.k0_pay1 (F := Ideal) (iblk0 V c 0 t) (iblk0 V c 2 t) (iblk0 V c 3 t) (iblk0 V c 4 t) (iblk0 V c 5 t)
      (iblk0 V c 1 t) j
    = edgeG (V c main_arg2) (V c main_v10) (V c main_arg3) (V c main_v11) (V c main_arg5) (V c main_v12) (((cfg0.win 6).blk t).view.emb j)
  refine block_point k0_pay1_apply (V c main_arg2) (V c main_v10) (V c main_arg3) (V c main_v11) (V c main_arg5) (V c main_v12)
    (iblk0 V c 0 t) (iblk0 V c 1 t) (iblk0 V c 2 t) (iblk0 V c 3 t) (iblk0 V c 4 t) (iblk0 V c 5 t) t.val
    ?_ ?_ ?_ ?_ ?_ ?_ j (((cfg0.win 6).blk t).view.emb j) ?_ ?_
  · intro p k hk
    show V c main_arg2 (((cfg0.win 0).blk t).view.emb (ix2 p 0)) = V c main_arg2 k
    refine congrArg (V c main_arg2) (funext fun a => Fin.ext ?_)
    have hk1 : (k 1).val < 1 := (k 1).isLt
    match a with
    | ⟨0, _⟩ => show win0_0.index t (0 : Fin 2) * 4000 + 1 * p.val = (k 0).val; rw [e00, hk]; omega
    | ⟨1, _⟩ => show win0_0.index t (1 : Fin 2) * 1 + 1 * 0 = (k 1).val; rw [e01]; omega
  · intro p q k hk0 hk1
    show V c main_v10 (((cfg0.win 1).blk t).view.emb (ix2 p q)) = V c main_v10 k
    refine congrArg (V c main_v10) (funext fun a => Fin.ext ?_)
    match a with
    | ⟨0, _⟩ => show win0_1.index t (0 : Fin 2) * 4000 + 1 * p.val = (k 0).val; rw [e10, hk0]; omega
    | ⟨1, _⟩ => show win0_1.index t (1 : Fin 2) * 256 + 1 * q.val = (k 1).val; rw [e11, hk1]; omega
  · funext y
    show V c main_arg3 (((cfg0.win 2).blk t).view.emb y) = V c main_arg3 y
    refine congrArg (V c main_arg3) (funext fun a => Fin.ext ?_)
    match a with
    | ⟨0, _⟩ => show win0_2.index t (0 : Fin 2) * 1 + 1 * (y 0).val = (y 0).val; rw [e20]; omega
    | ⟨1, _⟩ => show win0_2.index t (1 : Fin 2) * 256 + 1 * (y 1).val = (y 1).val; rw [e21]; omega
  · funext y
    show V c main_v11 (((cfg0.win 3).blk t).view.emb y) = V c main_v11 y
    refine congrArg (V c main_v11) (funext fun a => Fin.ext ?_)
    match a with
    | ⟨0, _⟩ => show win0_3.index t (0 : Fin 2) * 1 + 1 * (y 0).val = (y 0).val; rw [e30]; omega
    | ⟨1, _⟩ => show win0_3.index t (1 : Fin 2) * 256 + 1 * (y 1).val = (y 1).val; rw [e31]; omega
  · funext y
    show V c main_arg5 (((cfg0.win 4).blk t).view.emb y) = V c main_arg5 y
    refine congrArg (V c main_arg5) (funext fun a => Fin.ext ?_)
    match a with
    | ⟨0, _⟩ => show win0_4.index t (0 : Fin 2) * 256 + 1 * (y 0).val = (y 0).val; rw [e40]; omega
    | ⟨1, _⟩ => show win0_4.index t (1 : Fin 2) * 256 + 1 * (y 1).val = (y 1).val; rw [e41]; omega
  · funext y
    show V c main_v12 (((cfg0.win 5).blk t).view.emb y) = V c main_v12 y
    refine congrArg (V c main_v12) (funext fun a => Fin.ext ?_)
    match a with
    | ⟨0, _⟩ => show win0_5.index t (0 : Fin 2) * 1 + 1 * (y 0).val = (y 0).val; rw [e50]; omega
    | ⟨1, _⟩ => show win0_5.index t (1 : Fin 2) * 256 + 1 * (y 1).val = (y 1).val; rw [e51]; omega
  · show win0_6.index t (0 : Fin 2) * 4000 + 1 * (j 0).val = t.val * 4000 + (j 0).val
    rw [e60]; omega
  · show win0_6.index t (1 : Fin 2) * 256 + 1 * (j 1).val = (j 1).val
    rw [e61]; omega

/-- An index of the output array is in point `t`'s block iff each coordinate is in the block's range on its axis. -/
theorem mem_blk0 (t : Fin cfg0.N) (i : S320000x256.Idx) :
    i ∈ ((cfg0.win 6).blk t).view.set ↔ ∀ a : Fin 2, win0_6.index t a * S4000x256.size a ≤ (i a).val
      ∧ (i a).val < win0_6.index t a * S4000x256.size a + S4000x256.size a := by
  show i ∈ ((View.whole main_v13).slice (win0_6.rect t)).set ↔ _
  rw [View.set_slice_whole, Rect.mem_set_unit]
  exact Iff.rfl

/-- The 80 blocks of 4000 rows tile the 320000 rows: row `r` is in the block of point `r / 4000`. -/
theorem cover0 (i : S320000x256.Idx) :
    ∃ t : Fin cfg0.N, (cfg0.win 6).flush t = true ∧ i ∈ ((cfg0.win 6).blk t).view.set := by
  have hi0 : (i 0).val < 320000 := (i 0).isLt
  have hi1 : (i 1).val < 256 := (i 1).isLt
  have hN : cfg0.N = 80 := N_0
  have ht : (i 0).val / 4000 < cfg0.N := by rw [hN]; omega
  refine ⟨⟨(i 0).val / 4000, ht⟩, flush0_6 _, ?_⟩
  rw [mem_blk0]
  obtain ⟨-, -, -, -, -, -, -, -, -, -, -, -, e60, e61⟩ := idx_facts0 ⟨(i 0).val / 4000, ht⟩
  have e60' : win0_6.index ⟨(i 0).val / 4000, ht⟩ (0 : Fin 2) = (i 0).val / 4000 := e60
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    rw [e60']; omega
  | ⟨1, _⟩ =>
    show win0_6.index ⟨(i 0).val / 4000, ht⟩ (1 : Fin 2) * 256 ≤ (i 1).val
      ∧ (i 1).val < win0_6.index ⟨(i 0).val / 4000, ht⟩ (1 : Fin 2) * 256 + 256
    rw [e61]; omega

/-- THE OUTPUT ARRAY of region 0 after its 80 points: the layer's function of the arrays the region finds. -/
theorem region0_value (c : Dev nD) :
    (Cert.KernelIdeal.Gen.dat0 (F := Ideal) V c).arrAt 6 Cert.KernelIdeal.cfg0.N
      = edgeG (V c main_arg2) (V c main_v10) (V c main_arg3) (V c main_v11) (V c main_arg5) (V c main_v12) :=
  (dat0 V c).arrAt_eq_of_cover 6
    (edgeG (V c main_arg2) (V c main_v10) (V c main_arg3) (V c main_v11) (V c main_arg5) (V c main_v12))
    (fun t _ => flushed0_eq V c t) cover0

end

/-! ## Region 2 -/

/-- The printed index maps of region 2, decided over its 80 grid points: the edge-attribute window, the gathered-rows
    window and the output window are all on block `t` of the rows at point `t`; the four parameter windows stay on
    block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

section

variable (V : (c : Dev nD) → (b : Ref sig .tc) → Buf (Elt Ideal) ((c : Thread nD τ).loc b))

/-- WHAT POINT `t` WRITES BACK is block `t` of the layer's function of the arrays as the region finds them: rows
    `4000 t … 4000 t + 3999` of the output read the same rows of the attributes and of the gathered rows, and the
    parameters whole. -/
theorem flushed2_eq (c : Dev nD) (t : Fin cfg2.N) :
    (dat2 V c).flushed 6 t = ((cfg2.win 6).blk t).view.read (Elt Ideal)
      (edgeG (V c main_arg2) (V c main_v28) (V c main_arg11) (V c main_v29) (V c main_arg13) (V c main_v30)) := by
  show (cfg2.win 6).cut (grid2.coords t) ((dat2 V c).after 6 t) = _
  rw [after2_6]
  unfold out2_6
  rw [View.canon_unit_zero hz]
  simp only [View.ld_unit_zero (S := S4000x1) hz, View.ld_unit_zero (S := S1x256) hz,
    View.ld_unit_zero (S := S256x256) hz, View.ld_unit_zero (S := S4000x256) hz]
  obtain ⟨e00, e01, e10, e11, e20, e21, e30, e31, e40, e41, e50, e51, e60, e61⟩ := idx_facts2 t
  funext j
  show Gen.k2_pay1 (F := Ideal) (iblk2 V c 0 t) (iblk2 V c 2 t) (iblk2 V c 3 t) (iblk2 V c 4 t) (iblk2 V c 5 t)
      (iblk2 V c 1 t) j
    = edgeG (V c main_arg2) (V c main_v28) (V c main_arg11) (V c main_v29) (V c main_arg13) (V c main_v30) (((cfg2.win 6).blk t).view.emb j)
  refine block_point k2_pay1_apply (V c main_arg2) (V c main_v28) (V c main_arg11) (V c main_v29) (V c main_arg13) (V c main_v30)
    (iblk2 V c 0 t) (iblk2 V c 1 t) (iblk2 V c 2 t) (iblk2 V c 3 t) (iblk2 V c 4 t) (iblk2 V c 5 t) t.val
    ?_ ?_ ?_ ?_ ?_ ?_ j (((cfg2.win 6).blk t).view.emb j) ?_ ?_
  · intro p k hk
    show V c main_arg2 (((cfg2.win 0).blk t).view.emb (ix2 p 0)) = V c main_arg2 k
    refine congrArg (V c main_arg2) (funext fun a => Fin.ext ?_)
    have hk1 : (k 1).val < 1 := (k 1).isLt
    match a with
    | ⟨0, _⟩ => show win2_0.index t (0 : Fin 2) * 4000 + 1 * p.val = (k 0).val; rw [e00, hk]; omega
    | ⟨1, _⟩ => show win2_0.index t (1 : Fin 2) * 1 + 1 * 0 = (k 1).val; rw [e01]; omega
  · intro p q k hk0 hk1
    show V c main_v28 (((cfg2.win 1).blk t).view.emb (ix2 p q)) = V c main_v28 k
    refine congrArg (V c main_v28) (funext fun a => Fin.ext ?_)
    match a with
    | ⟨0, _⟩ => show win2_1.index t (0 : Fin 2) * 4000 + 1 * p.val = (k 0).val; rw [e10, hk0]; omega
    | ⟨1, _⟩ => show win2_1.index t (1 : Fin 2) * 256 + 1 * q.val = (k 1).val; rw [e11, hk1]; omega
  · funext y
    show V c main_arg11 (((cfg2.win 2).blk t).view.emb y) = V c main_arg11 y
    refine congrArg (V c main_arg11) (funext fun a => Fin.ext ?_)
    match a with
    | ⟨0, _⟩ => show win2_2.index t (0 : Fin 2) * 1 + 1 * (y 0).val = (y 0).val; rw [e20]; omega
    | ⟨1, _⟩ => show win2_2.index t (1 : Fin 2) * 256 + 1 * (y 1).val = (y 1).val; rw [e21]; omega
  · funext y
    show V c main_v29 (((cfg2.win 3).blk t).view.emb y) = V c main_v29 y
    refine congrArg (V c main_v29) (funext fun a => Fin.ext ?_)
    match a with
    | ⟨0, _⟩ => show win2_3.index t (0 : Fin 2) * 1 + 1 * (y 0).val = (y 0).val; rw [e30]; omega
    | ⟨1, _⟩ => show win2_3.index t (1 : Fin 2) * 256 + 1 * (y 1).val = (y 1).val; rw [e31]; omega
  · funext y
    show V c main_arg13 (((cfg2.win 4).blk t).view.emb y) = V c main_arg13 y
    refine congrArg (V c main_arg13) (funext fun a => Fin.ext ?_)
    match a with
    | ⟨0, _⟩ => show win2_4.index t (0 : Fin 2) * 256 + 1 * (y 0).val = (y 0).val; rw [e40]; omega
    | ⟨1, _⟩ => show win2_4.index t (1 : Fin 2) * 256 + 1 * (y 1).val = (y 1).val; rw [e41]; omega
  · funext y
    show V c main_v30 (((cfg2.win 5).blk t).view.emb y) = V c main_v30 y
    refine congrArg (V c main_v30) (funext fun a => Fin.ext ?_)
    match a with
    | ⟨0, _⟩ => show win2_5.index t (0 : Fin 2) * 1 + 1 * (y 0).val = (y 0).val; rw [e50]; omega
    | ⟨1, _⟩ => show win2_5.index t (1 : Fin 2) * 256 + 1 * (y 1).val = (y 1).val; rw [e51]; omega
  · show win2_6.index t (0 : Fin 2) * 4000 + 1 * (j 0).val = t.val * 4000 + (j 0).val
    rw [e60]; omega
  · show win2_6.index t (1 : Fin 2) * 256 + 1 * (j 1).val = (j 1).val
    rw [e61]; omega

/-- An index of the output array is in point `t`'s block iff each coordinate is in the block's range on its axis. -/
theorem mem_blk2 (t : Fin cfg2.N) (i : S320000x256.Idx) :
    i ∈ ((cfg2.win 6).blk t).view.set ↔ ∀ a : Fin 2, win2_6.index t a * S4000x256.size a ≤ (i a).val
      ∧ (i a).val < win2_6.index t a * S4000x256.size a + S4000x256.size a := by
  show i ∈ ((View.whole main_v31).slice (win2_6.rect t)).set ↔ _
  rw [View.set_slice_whole, Rect.mem_set_unit]
  exact Iff.rfl

/-- The 80 blocks of 4000 rows tile the 320000 rows: row `r` is in the block of point `r / 4000`. -/
theorem cover2 (i : S320000x256.Idx) :
    ∃ t : Fin cfg2.N, (cfg2.win 6).flush t = true ∧ i ∈ ((cfg2.win 6).blk t).view.set := by
  have hi0 : (i 0).val < 320000 := (i 0).isLt
  have hi1 : (i 1).val < 256 := (i 1).isLt
  have hN : cfg2.N = 80 := N_2
  have ht : (i 0).val / 4000 < cfg2.N := by rw [hN]; omega
  refine ⟨⟨(i 0).val / 4000, ht⟩, flush2_6 _, ?_⟩
  rw [mem_blk2]
  obtain ⟨-, -, -, -, -, -, -, -, -, -, -, -, e60, e61⟩ := idx_facts2 ⟨(i 0).val / 4000, ht⟩
  have e60' : win2_6.index ⟨(i 0).val / 4000, ht⟩ (0 : Fin 2) = (i 0).val / 4000 := e60
  intro a
  match a with
  | ⟨0, _⟩ =>
    show win2_6.index ⟨(i 0).val / 4000, ht⟩ (0 : Fin 2) * 4000 ≤ (i 0).val
      ∧ (i 0).val < win2_6.index ⟨(i 0).val / 4000, ht⟩ (0 : Fin 2) * 4000 + 4000
    rw [e60']; omega
  | ⟨1, _⟩ =>
    show win2_6.index ⟨(i 0).val / 4000, ht⟩ (1 : Fin 2) * 256 ≤ (i 1).val
      ∧ (i 1).val < win2_6.index ⟨(i 0).val / 4000, ht⟩ (1 : Fin 2) * 256 + 256
    rw [e61]; omega

/-- THE OUTPUT ARRAY of region 2 after its 80 points: the layer's function of the arrays the region finds. -/
theorem region2_value (c : Dev nD) :
    (Cert.KernelIdeal.Gen.dat2 (F := Ideal) V c).arrAt 6 Cert.KernelIdeal.cfg2.N
      = edgeG (V c main_arg2) (V c main_v28) (V c main_arg11) (V c main_v29) (V c main_arg13) (V c main_v30) :=
  (dat2 V c).arrAt_eq_of_cover 6
    (edgeG (V c main_arg2) (V c main_v28) (V c main_arg11) (V c main_v29) (V c main_arg13) (V c main_v30))
    (fun t _ => flushed2_eq V c t) cover2

end

end Cert.EdgeV

end
-- ==== Proof.NodeSpec.lean ====
/-
  The node update as one function of whole arrays, entry by entry.

  For node features `x` and aggregated messages `a` (50000 rows of 256), the two 256 × 256 halves `wa`, `wb` of the
  first weight, a bias row `b1`, the second weight `w2` and a bias row `b2`, the updated features are

      x + (relu (x · wa + a · wb + b1) · w2 + b2),

  that is, at row `r` and column `q`,

      x r q + ((∑ d, max ((∑ k, x r k * wa k d) + (∑ k, a r k * wb k d) + b1 0 d) 0 * w2 d q) + b2 0 q),

  every operation the exact one on the extended reals.
-/
import proofs.«112174_j9062380995258_1_alg».proof.KernelIdeal
import Idealize.ShloMosaic.PureOps.Ideal
import Idealize.ShloMosaic.Lib.ValueIdx

noncomputable section

open scoped BigOperators

namespace Cert.NodeV

open Idealize.ShloMosaic Idealize.ShloMosaic.ValueIdx Cert.KernelIdeal

/-- The updated node features, entry by entry, from the whole arrays. -/
def nodeG (x a : S50000x256.Idx → EReal) (wa wb : S256x256.Idx → EReal) (b1 : S1x256.Idx → EReal) (w2 : S256x256.Idx → EReal) (b2 : S1x256.Idx → EReal) : S50000x256.Idx → EReal :=
  fun i => x i + ((∑ d : Fin 256, max (((∑ k : Fin 256, x (ix2 (i 0) k) * wa (ix2 k d)) + (∑ k : Fin 256, a (ix2 (i 0) k) * wb (ix2 k d))) + b1 (ix2 0 d)) (Ideal.ofBits .f32 0x00000000#32) * w2 (ix2 d (i 1))) + b2 (ix2 0 (i 1)))

end Cert.NodeV

end
-- ==== Proof.NodePayload.lean ====
/-
  The node-update body's stored block, read entry by entry at the exact extended-real values.

  The body keeps a block `x` of node features and a block `a` of aggregated messages (2000 rows of 256), two
  256 × 256 halves `wa`, `wb` of the first weight, a bias row `b1`, a second 256 × 256 weight `w2` and a bias
  row `b2`, and stores

      x + (relu (x · wa + a · wb + b1) · w2 + b2).

  At the exact values a change of format is the identity and a matrix product into the zero accumulator is the
  plain finite sum over the contracted coordinate, so the entry at row `p`, column `q` is

      x p q + ((∑ d, max ((∑ k, x p k * wa k d) + (∑ k, a p k * wb k d) + b1 0 d) 0 * w2 d q) + b2 0 q).

  The two bodies of this shape in the program differ only by casts of an operand to its own shape, which are the
  identity; both are reduced to one common term first.
-/
import proofs.«112174_j9062380995258_1_alg».proof.Proof.Gen.KernelIdeal.Skeleton
import proofs.«112174_j9062380995258_1_alg».proof.Proof.LibMatmulRead
import Idealize.ShloMosaic.Lib.ValueIdx
import Idealize.ShloMosaic.Lib.ValueLayout
import Idealize.ShloMosaic.Lib.Pipeline.Value

noncomputable section

open scoped BigOperators

namespace Cert.NodeV

open Idealize.ShloMosaic Idealize.ShloMosaic.ValueIdx Cert.KernelIdeal Cert.KernelIdeal.Facts₀

/-- The body's arithmetic with the casts of an operand to its own shape removed. -/
def nodeCore (x a : FVec Ideal S2000x256 .f32) (wa wb : FVec Ideal S256x256 .f32) (b1 : FVec Ideal S1x256 .f32)
    (w2 : FVec Ideal S256x256 .f32) (b2 : FVec Ideal S1x256 .f32) : FVec Ideal S2000x256 .f32 :=
  addf x
    (addf
      (matmul dot_S2000x256_S256x256_S2000x256_1_0_0_1_n_n none
        (truncf .bf16
          (maximumf
            (addf
              (addf
                (matmul dot_S2000x256_S256x256_S2000x256_1_0_0_1_n_n none (truncf .bf16 x bitsLt_bf16_f32)
                  (truncf .bf16 wa bitsLt_bf16_f32) (constant (F := Ideal) S2000x256 .f32 0x00000000#32))
                (matmul dot_S2000x256_S256x256_S2000x256_1_0_0_1_n_n none (truncf .bf16 a bitsLt_bf16_f32)
                  (truncf .bf16 wb bitsLt_bf16_f32) (constant (F := Ideal) S2000x256 .f32 0x00000000#32)))
              (broadcastTo S2000x256 b1 broadcasts_S1x256_S2000x256))
            (broadcast S2000x256 (Scalar.ofBits (F := Ideal) .f32 0x00000000#32)))
          bitsLt_bf16_f32)
        (truncf .bf16 w2 bitsLt_bf16_f32) (constant (F := Ideal) S2000x256 .f32 0x00000000#32))
      (broadcastTo S2000x256 b2 broadcasts_S1x256_S2000x256))

/-- A product of a 2000 × 256 block with a 256 × 256 weight, both first changed to the narrower format, from the
    zero accumulator, at `(p, q)`: the sum over the contracted coordinate of the operands' own entries. -/
theorem matmul_block_apply (x : FVec Ideal S2000x256 .f32) (w : FVec Ideal S256x256 .f32) (p : Fin 2000) (q : Fin 256) :
    matmul dot_S2000x256_S256x256_S2000x256_1_0_0_1_n_n none (truncf .bf16 x bitsLt_bf16_f32)
        (truncf .bf16 w bitsLt_bf16_f32) (constant (F := Ideal) S2000x256 .f32 0x00000000#32) (ix2 p q)
      = ∑ d : Fin 256, x (ix2 p d) * w (ix2 d q) :=
  matmul_ix2_apply dot_S2000x256_S256x256_S2000x256_1_0_0_1_n_n rfl rfl rfl rfl rfl rfl none
    (truncf .bf16 x bitsLt_bf16_f32) (truncf .bf16 w bitsLt_bf16_f32) p q

/-- The common term at row `p`, column `q`. -/
theorem nodeCore_apply (x a : FVec Ideal S2000x256 .f32) (wa wb : FVec Ideal S256x256 .f32) (b1 : FVec Ideal S1x256 .f32)
    (w2 : FVec Ideal S256x256 .f32) (b2 : FVec Ideal S1x256 .f32) (p : Fin 2000) (q : Fin 256) :
    nodeCore x a wa wb b1 w2 b2 (ix2 p q)
      = x (ix2 p q) + ((∑ d : Fin 256, max (((∑ k : Fin 256, x (ix2 p k) * wa (ix2 k d)) + (∑ k : Fin 256, a (ix2 p k) * wb (ix2 k d))) + b1 (ix2 0 d)) (Ideal.ofBits .f32 0x00000000#32) * w2 (ix2 d q)) + b2 (ix2 0 q)) := by
  unfold nodeCore
  refine congrArg₂ (· + ·) rfl (congrArg₂ (· + ·) ?_ ?_)
  · refine (matmul_ix2_apply dot_S2000x256_S256x256_S2000x256_1_0_0_1_n_n rfl rfl rfl rfl rfl rfl none _
      (truncf .bf16 w2 bitsLt_bf16_f32) p q).trans ?_
    refine Finset.sum_congr rfl fun d _ => congrArg₂ (· * ·) ?_ rfl
    refine congrArg₂ max (congrArg₂ (· + ·) (congrArg₂ (· + ·) ?_ ?_) ?_) rfl
    · exact matmul_block_apply x wa p d
    · exact matmul_block_apply a wb p d
    · exact broadcastTo_1b_ab_apply b1 broadcasts_S1x256_S2000x256 p d
  · exact broadcastTo_1b_ab_apply b2 broadcasts_S1x256_S2000x256 p q

/-- The first node-update body is the common term of its loaded blocks. -/
theorem k1_pay1_eq_core (v0 v1 : Vec Ideal S2000x256 .f32) (v3 v5 : Vec Ideal S256x256 .f32) (v7 : Vec Ideal S1x256 .f32)
    (v9 : Vec Ideal S256x256 .f32) (v10 : Vec Ideal S1x256 .f32) :
    Cert.KernelIdeal.Gen.k1_pay1 (F := Ideal) v0 v1 v3 v5 v7 v9 v10 = nodeCore v0 v1 v3 v5 v7 v9 v10 := by
  unfold Cert.KernelIdeal.Gen.k1_pay1 nodeCore
  simp only [shapeCast_self]

/-- The second node-update body is the same term of its loaded blocks. -/
theorem k3_pay1_eq_core (v0 v2 : Vec Ideal S2000x256 .f32) (v4 v6 : Vec Ideal S256x256 .f32) (v8 : Vec Ideal S1x256 .f32)
    (v10 : Vec Ideal S256x256 .f32) (v11 : Vec Ideal S1x256 .f32) :
    Cert.KernelIdeal.Gen.k3_pay1 (F := Ideal) v0 v2 v4 v6 v8 v10 v11 = nodeCore v0 v2 v4 v6 v8 v10 v11 := by
  unfold Cert.KernelIdeal.Gen.k3_pay1 nodeCore
  simp only [shapeCast_self]

/-- The first node-update body's stored block at row `p`, column `q`. -/
theorem k1_pay1_apply (v0 v1 : Vec Ideal S2000x256 .f32) (v3 v5 : Vec Ideal S256x256 .f32) (v7 : Vec Ideal S1x256 .f32)
    (v9 : Vec Ideal S256x256 .f32) (v10 : Vec Ideal S1x256 .f32) (p : Fin 2000) (q : Fin 256) :
    Cert.KernelIdeal.Gen.k1_pay1 (F := Ideal) v0 v1 v3 v5 v7 v9 v10 (ix2 p q)
      = v0 (ix2 p q) + ((∑ d : Fin 256, max (((∑ k : Fin 256, v0 (ix2 p k) * v3 (ix2 k d)) + (∑ k : Fin 256, v1 (ix2 p k) * v5 (ix2 k d))) + v7 (ix2 0 d)) (Ideal.ofBits .f32 0x00000000#32) * v9 (ix2 d q)) + v10 (ix2 0 q)) :=
  (congrFun (k1_pay1_eq_core v0 v1 v3 v5 v7 v9 v10) (ix2 p q)).trans (nodeCore_apply v0 v1 v3 v5 v7 v9 v10 p q)

/-- The second node-update body's stored block at row `p`, column `q`. -/
theorem k3_pay1_apply (v0 v2 : Vec Ideal S2000x256 .f32) (v4 v6 : Vec Ideal S256x256 .f32) (v8 : Vec Ideal S1x256 .f32)
    (v10 : Vec Ideal S256x256 .f32) (v11 : Vec Ideal S1x256 .f32) (p : Fin 2000) (q : Fin 256) :
    Cert.KernelIdeal.Gen.k3_pay1 (F := Ideal) v0 v2 v4 v6 v8 v10 v11 (ix2 p q)
      = v0 (ix2 p q) + ((∑ d : Fin 256, max (((∑ k : Fin 256, v0 (ix2 p k) * v4 (ix2 k d)) + (∑ k : Fin 256, v2 (ix2 p k) * v6 (ix2 k d))) + v8 (ix2 0 d)) (Ideal.ofBits .f32 0x00000000#32) * v10 (ix2 d q)) + v11 (ix2 0 q)) :=
  (congrFun (k3_pay1_eq_core v0 v2 v4 v6 v8 v10 v11) (ix2 p q)).trans (nodeCore_apply v0 v2 v4 v6 v8 v10 v11 p q)

end Cert.NodeV

end
-- ==== Proof.NodeRegion.lean ====
/-
  The two node-update regions, from blocks to arrays.

  Each region runs the node-update body at 25 grid points. At point `t` the two row-blocked inputs (node features
  and aggregated messages) hold rows 2000·t … 2000·t + 1999 of their arrays, the two weight halves, the second
  weight and the two biases are staged whole, and the body's stored block is written back to rows
  2000·t … 2000·t + 1999 of the output. The 25 blocks tile the 50000 rows, so the output array ends holding, at
  every entry, the node update of the arrays the region was entered with. The entry contents `V` are a parameter.
-/
import proofs.«112174_j9062380995258_1_alg».proof.Proof.Gen.KernelIdeal.Frame
import proofs.«112174_j9062380995258_1_alg».proof.Proof.NodeSpec
import proofs.«112174_j9062380995258_1_alg».proof.Proof.NodePayload
import Idealize.ShloMosaic.Lib.Pipeline.Value
import Idealize.ShloMosaic.Lib.ValueIdx
import Idealize.ShloMosaic.Lib.Tactic

noncomputable section

open scoped BigOperators

namespace Cert.NodeV

open Idealize.ShloMosaic Idealize.ShloMosaic.ValueIdx Idealize.ShloMosaic.TcCoe Idealize.SL.Sem
open Idealize.ShloMosaic.Pipeline (Dat)
open Cert.KernelIdeal Cert.KernelIdeal.Facts₀ Cert.KernelIdeal.Gen

theorem hz : (![0, 0] : Fin 2 → Nat) = fun _ => 0 := funext fun a => by fin_cases a <;> rfl

/-- The body's entry (p, q), written over the blocks' own entries, is the node update of the whole arrays at
    (r, q), when the two row blocks hold row `r` of their arrays at row `p` and each weight or bias block holds
    its whole array. -/
theorem point_value (x a : S50000x256.Idx → EReal) (wa wb : S256x256.Idx → EReal) (b1 : S1x256.Idx → EReal)
    (w2 : S256x256.Idx → EReal) (b2 : S1x256.Idx → EReal)
    (x0 x1 : Vec Ideal S2000x256 .f32) (x2 x3 : Vec Ideal S256x256 .f32) (x4 : Vec Ideal S1x256 .f32)
    (x5 : Vec Ideal S256x256 .f32) (x6 : Vec Ideal S1x256 .f32) (p : Fin 2000) (q : Fin 256) (r : Fin 50000)
    (h0 : ∀ k : Fin 256, x0 (ix2 p k) = x (ix2 r k)) (h1 : ∀ k : Fin 256, x1 (ix2 p k) = a (ix2 r k))
    (h2 : ∀ (k d : Fin 256), x2 (ix2 k d) = wa (ix2 k d)) (h3 : ∀ (k d : Fin 256), x3 (ix2 k d) = wb (ix2 k d))
    (h4 : ∀ d : Fin 256, x4 (ix2 0 d) = b1 (ix2 0 d)) (h5 : ∀ (k d : Fin 256), x5 (ix2 k d) = w2 (ix2 k d))
    (h6 : ∀ d : Fin 256, x6 (ix2 0 d) = b2 (ix2 0 d)) :
    x0 (ix2 p q) + ((∑ d : Fin 256, max (((∑ k : Fin 256, x0 (ix2 p k) * x2 (ix2 k d)) + (∑ k : Fin 256, x1 (ix2 p k) * x3 (ix2 k d))) + x4 (ix2 0 d)) (Ideal.ofBits .f32 0x00000000#32) * x5 (ix2 d q)) + x6 (ix2 0 q))
      = nodeG x a wa wb b1 w2 b2 (ix2 r q) := by
  show _ = x (ix2 r q) + ((∑ d : Fin 256, max (((∑ k : Fin 256, x (ix2 r k) * wa (ix2 k d)) + (∑ k : Fin 256, a (ix2 r k) * wb (ix2 k d))) + b1 (ix2 0 d)) (Ideal.ofBits .f32 0x00000000#32) * w2 (ix2 d q)) + b2 (ix2 0 q))
  simp only [h0, h1, h2, h3, h4, h5, h6]

/-! ## The first node-update region -/

section Region1

variable (V : (c : Dev nD) → (b : Ref sig .tc) → Buf (Elt Ideal) ((c : Thread nD τ).loc b))

/-- The region's printed index maps, decided over its 25 points: the two row-blocked inputs and the output sit at
    block row `t`, block column 0; the weights and the biases at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of the node update of the arrays as the region finds them: the block's
    entry (p, q) sits at row 2000·t + p of the array, the input blocks hold those same rows, and each weight or
    bias block is its whole array. -/
theorem flushed1_eq (c : Dev nD) (t : Fin cfg1.N) :
    (dat1 (F := Ideal) V c).flushed 7 t = ((cfg1.win 7).blk t).view.read (Elt Ideal)
      (nodeG (V c main_arg0) (V c main_v16) (V c main_v17) (V c main_v18) (V c main_v19) (V c main_arg9) (V c main_v20)) := by
  show (cfg1.win 7).cut (grid1.coords t) ((dat1 V c).after 7 t) = _
  rw [after1_7]
  unfold out1_7
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  obtain ⟨e00, e01, e10, e11, e20, e21, e30, e31, e40, e41, e50, e51, e60, e61, e70, e71⟩ := idx_facts1 t
  have ht : t.val < 25 := Nat.lt_of_lt_of_eq t.isLt N_1
  have hp : p.val < 2000 := p.isLt
  show Cert.KernelIdeal.Gen.k1_pay1 (iblk1 V c 0 t) (iblk1 V c 1 t) (iblk1 V c 2 t) (iblk1 V c 3 t) (iblk1 V c 4 t) (iblk1 V c 5 t) (iblk1 V c 6 t) (ix2 p q)
    = nodeG (V c main_arg0) (V c main_v16) (V c main_v17) (V c main_v18) (V c main_v19) (V c main_arg9) (V c main_v20) (((cfg1.win 7).blk t).view.emb (ix2 p q))
  have hemb : ((cfg1.win 7).blk t).view.emb (ix2 p q) = (ix2 (⟨t.val * 2000 + p.val, by omega⟩ : Fin 50000) q : S50000x256.Idx) := by
    funext a; apply Fin.ext
    match a with
    | ⟨0, _⟩ => show win1_7.index t (0 : Fin 2) * 2000 + 1 * p.val = t.val * 2000 + p.val; rw [e70]; omega
    | ⟨1, _⟩ => show win1_7.index t (1 : Fin 2) * 256 + 1 * q.val = q.val; rw [e71]; omega
  rw [hemb]
  refine (k1_pay1_apply (iblk1 V c 0 t) (iblk1 V c 1 t) (iblk1 V c 2 t) (iblk1 V c 3 t) (iblk1 V c 4 t) (iblk1 V c 5 t) (iblk1 V c 6 t) p q).trans ?_
  refine point_value (V c main_arg0) (V c main_v16) (V c main_v17) (V c main_v18) (V c main_v19) (V c main_arg9) (V c main_v20)
    (iblk1 V c 0 t) (iblk1 V c 1 t) (iblk1 V c 2 t) (iblk1 V c 3 t) (iblk1 V c 4 t) (iblk1 V c 5 t) (iblk1 V c 6 t) p q
    ⟨t.val * 2000 + p.val, by omega⟩ ?_ ?_ ?_ ?_ ?_ ?_ ?_
  · intro k
    show V c main_arg0 (((cfg1.win 0).blk t).view.emb (ix2 p k)) = V c main_arg0 (ix2 (⟨t.val * 2000 + p.val, by omega⟩ : Fin 50000) k : S50000x256.Idx)
    refine congrArg (V c main_arg0) (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 256 + 1 * k.val = k.val; rw [e01]; omega
  · intro k
    show V c main_v16 (((cfg1.win 1).blk t).view.emb (ix2 p k)) = V c main_v16 (ix2 (⟨t.val * 2000 + p.val, by omega⟩ : Fin 50000) k : S50000x256.Idx)
    refine congrArg (V c main_v16) (funext fun a => Fin.ext ?_)
    match a with
    | ⟨0, _⟩ => show win1_1.index t (0 : Fin 2) * 2000 + 1 * p.val = t.val * 2000 + p.val; rw [e10]; omega
    | ⟨1, _⟩ => show win1_1.index t (1 : Fin 2) * 256 + 1 * k.val = k.val; rw [e11]; omega
  · intro k d
    show V c main_v17 (((cfg1.win 2).blk t).view.emb (ix2 k d)) = V c main_v17 (ix2 k d : S256x256.Idx)
    refine congrArg (V c main_v17) (funext fun a => Fin.ext ?_)
    match a with
    | ⟨0, _⟩ => show win1_2.index t (0 : Fin 2) * 256 + 1 * k.val = k.val; rw [e20]; omega
    | ⟨1, _⟩ => show win1_2.index t (1 : Fin 2) * 256 + 1 * d.val = d.val; rw [e21]; omega
  · intro k d
    show V c main_v18 (((cfg1.win 3).blk t).view.emb (ix2 k d)) = V c main_v18 (ix2 k d : S256x256.Idx)
    refine congrArg (V c main_v18) (funext fun a => Fin.ext ?_)
    match a with
    | ⟨0, _⟩ => show win1_3.index t (0 : Fin 2) * 256 + 1 * k.val = k.val; rw [e30]; omega
    | ⟨1, _⟩ => show win1_3.index t (1 : Fin 2) * 256 + 1 * d.val = d.val; rw [e31]; omega
  · intro d
    show V c main_v19 (((cfg1.win 4).blk t).view.emb (ix2 0 d)) = V c main_v19 (ix2 0 d : S1x256.Idx)
    refine congrArg (V c main_v19) (funext fun a => Fin.ext ?_)
    match a with
    | ⟨0, _⟩ => show win1_4.index t (0 : Fin 2) * 1 + 1 * 0 = 0; rw [e40]
    | ⟨1, _⟩ => show win1_4.index t (1 : Fin 2) * 256 + 1 * d.val = d.val; rw [e41]; omega
  · intro k d
    show V c main_arg9 (((cfg1.win 5).blk t).view.emb (ix2 k d)) = V c main_arg9 (ix2 k d : S256x256.Idx)
    refine congrArg (V c main_arg9) (funext fun a => Fin.ext ?_)
    match a with
    | ⟨0, _⟩ => show win1_5.index t (0 : Fin 2) * 256 + 1 * k.val = k.val; rw [e50]; omega
    | ⟨1, _⟩ => show win1_5.index t (1 : Fin 2) * 256 + 1 * d.val = d.val; rw [e51]; omega
  · intro d
    show V c main_v20 (((cfg1.win 6).blk t).view.emb (ix2 0 d)) = V c main_v20 (ix2 0 d : S1x256.Idx)
    refine congrArg (V c main_v20) (funext fun a => Fin.ext ?_)
    match a with
    | ⟨0, _⟩ => show win1_6.index t (0 : Fin 2) * 1 + 1 * 0 = 0; rw [e60]
    | ⟨1, _⟩ => show win1_6.index t (1 : Fin 2) * 256 + 1 * d.val = d.val; rw [e61]; omega

/-- An index of the output array is in point `t`'s block iff each coordinate is in the block's range on its axis. -/
theorem mem_blk1 (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v21).slice (win1_7.rect t)).set ↔ _
  rw [View.set_slice_whole, Rect.mem_set_unit]
  exact Iff.rfl

/-- Every index of the output array is in some point's block: row `r` in the block of point `r / 2000`. -/
theorem cover1 (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, Nat.lt_of_lt_of_eq (by omega : (i 0).val / 2000 < 25) N_1.symm⟩, rfl⟩
  obtain ⟨e00, e01, e10, e11, e20, e21, e30, e31, e40, e41, e50, e51, e60, e61, e70, e71⟩ := idx_facts1 t
  refine ⟨t, flush1_7 t, ?_⟩
  rw [mem_blk1]
  intro a
  match a with
  | ⟨0, _⟩ =>
    show win1_7.index t (0 : Fin 2) * 2000 ≤ (i 0).val ∧ (i 0).val < win1_7.index t (0 : Fin 2) * 2000 + 2000
    rw [e70, ht]; omega
  | ⟨1, _⟩ =>
    show win1_7.index t (1 : Fin 2) * 256 ≤ (i 1).val ∧ (i 1).val < win1_7.index t (1 : Fin 2) * 256 + 256
    rw [e71]; omega

/-- The region's output array after its 25 points: the node update of the arrays the region was entered with. -/
theorem region1_value (c : Dev nD) :
    (Cert.KernelIdeal.Gen.dat1 (F := Ideal) V c).arrAt 7 cfg1.N
      = nodeG (V c main_arg0) (V c main_v16) (V c main_v17) (V c main_v18) (V c main_v19) (V c main_arg9) (V c main_v20) :=
  (dat1 (F := Ideal) V c).arrAt_eq_of_cover 7
    (nodeG (V c main_arg0) (V c main_v16) (V c main_v17) (V c main_v18) (V c main_v19) (V c main_arg9) (V c main_v20))
    (fun t _ => flushed1_eq V c t) cover1

end Region1

/-! ## The second node-update region -/

section Region3

variable (V : (c : Dev nD) → (b : Ref sig .tc) → Buf (Elt Ideal) ((c : Thread nD τ).loc b))

/-- The region's printed index maps, decided over its 25 points: the two row-blocked inputs and the output sit at
    block row `t`, block column 0; the weights and the biases at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- What point `t` writes back is block `t` of the node update of the arrays as the region finds them: the block's
    entry (p, q) sits at row 2000·t + p of the array, the input blocks hold those same rows, and each weight or
    bias block is its whole array. -/
theorem flushed3_eq (c : Dev nD) (t : Fin cfg3.N) :
    (dat3 (F := Ideal) V c).flushed 7 t = ((cfg3.win 7).blk t).view.read (Elt Ideal)
      (nodeG (V c main_v21) (V c main_v34) (V c main_v35) (V c main_v36) (V c main_v37) (V c main_arg17) (V c main_v38)) := by
  show (cfg3.win 7).cut (grid3.coords t) ((dat3 V c).after 7 t) = _
  rw [after3_7]
  unfold out3_7
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  obtain ⟨e00, e01, e10, e11, e20, e21, e30, e31, e40, e41, e50, e51, e60, e61, e70, e71⟩ := idx_facts3 t
  have ht : t.val < 25 := Nat.lt_of_lt_of_eq t.isLt N_3
  have hp : p.val < 2000 := p.isLt
  show Cert.KernelIdeal.Gen.k3_pay1 (iblk3 V c 0 t) (iblk3 V c 1 t) (iblk3 V c 2 t) (iblk3 V c 3 t) (iblk3 V c 4 t) (iblk3 V c 5 t) (iblk3 V c 6 t) (ix2 p q)
    = nodeG (V c main_v21) (V c main_v34) (V c main_v35) (V c main_v36) (V c main_v37) (V c main_arg17) (V c main_v38) (((cfg3.win 7).blk t).view.emb (ix2 p q))
  have hemb : ((cfg3.win 7).blk t).view.emb (ix2 p q) = (ix2 (⟨t.val * 2000 + p.val, by omega⟩ : Fin 50000) q : S50000x256.Idx) := by
    funext a; apply Fin.ext
    match a with
    | ⟨0, _⟩ => show win3_7.index t (0 : Fin 2) * 2000 + 1 * p.val = t.val * 2000 + p.val; rw [e70]; omega
    | ⟨1, _⟩ => show win3_7.index t (1 : Fin 2) * 256 + 1 * q.val = q.val; rw [e71]; omega
  rw [hemb]
  refine (k3_pay1_apply (iblk3 V c 0 t) (iblk3 V c 1 t) (iblk3 V c 2 t) (iblk3 V c 3 t) (iblk3 V c 4 t) (iblk3 V c 5 t) (iblk3 V c 6 t) p q).trans ?_
  refine point_value (V c main_v21) (V c main_v34) (V c main_v35) (V c main_v36) (V c main_v37) (V c main_arg17) (V c main_v38)
    (iblk3 V c 0 t) (iblk3 V c 1 t) (iblk3 V c 2 t) (iblk3 V c 3 t) (iblk3 V c 4 t) (iblk3 V c 5 t) (iblk3 V c 6 t) p q
    ⟨t.val * 2000 + p.val, by omega⟩ ?_ ?_ ?_ ?_ ?_ ?_ ?_
  · intro k
    show V c main_v21 (((cfg3.win 0).blk t).view.emb (ix2 p k)) = V c main_v21 (ix2 (⟨t.val * 2000 + p.val, by omega⟩ : Fin 50000) k : S50000x256.Idx)
    refine congrArg (V c main_v21) (funext fun a => Fin.ext ?_)
    match a with
    | ⟨0, _⟩ => show win3_0.index t (0 : Fin 2) * 2000 + 1 * p.val = t.val * 2000 + p.val; rw [e00]; omega
    | ⟨1, _⟩ => show win3_0.index t (1 : Fin 2) * 256 + 1 * k.val = k.val; rw [e01]; omega
  · intro k
    show V c main_v34 (((cfg3.win 1).blk t).view.emb (ix2 p k)) = V c main_v34 (ix2 (⟨t.val * 2000 + p.val, by omega⟩ : Fin 50000) k : S50000x256.Idx)
    refine congrArg (V c main_v34) (funext fun a => Fin.ext ?_)
    match a with
    | ⟨0, _⟩ => show win3_1.index t (0 : Fin 2) * 2000 + 1 * p.val = t.val * 2000 + p.val; rw [e10]; omega
    | ⟨1, _⟩ => show win3_1.index t (1 : Fin 2) * 256 + 1 * k.val = k.val; rw [e11]; omega
  · intro k d
    show V c main_v35 (((cfg3.win 2).blk t).view.emb (ix2 k d)) = V c main_v35 (ix2 k d : S256x256.Idx)
    refine congrArg (V c main_v35) (funext fun a => Fin.ext ?_)
    match a with
    | ⟨0, _⟩ => show win3_2.index t (0 : Fin 2) * 256 + 1 * k.val = k.val; rw [e20]; omega
    | ⟨1, _⟩ => show win3_2.index t (1 : Fin 2) * 256 + 1 * d.val = d.val; rw [e21]; omega
  · intro k d
    show V c main_v36 (((cfg3.win 3).blk t).view.emb (ix2 k d)) = V c main_v36 (ix2 k d : S256x256.Idx)
    refine congrArg (V c main_v36) (funext fun a => Fin.ext ?_)
    match a with
    | ⟨0, _⟩ => show win3_3.index t (0 : Fin 2) * 256 + 1 * k.val = k.val; rw [e30]; omega
    | ⟨1, _⟩ => show win3_3.index t (1 : Fin 2) * 256 + 1 * d.val = d.val; rw [e31]; omega
  · intro d
    show V c main_v37 (((cfg3.win 4).blk t).view.emb (ix2 0 d)) = V c main_v37 (ix2 0 d : S1x256.Idx)
    refine congrArg (V c main_v37) (funext fun a => Fin.ext ?_)
    match a with
    | ⟨0, _⟩ => show win3_4.index t (0 : Fin 2) * 1 + 1 * 0 = 0; rw [e40]
    | ⟨1, _⟩ => show win3_4.index t (1 : Fin 2) * 256 + 1 * d.val = d.val; rw [e41]; omega
  · intro k d
    show V c main_arg17 (((cfg3.win 5).blk t).view.emb (ix2 k d)) = V c main_arg17 (ix2 k d : S256x256.Idx)
    refine congrArg (V c main_arg17) (funext fun a => Fin.ext ?_)
    match a with
    | ⟨0, _⟩ => show win3_5.index t (0 : Fin 2) * 256 + 1 * k.val = k.val; rw [e50]; omega
    | ⟨1, _⟩ => show win3_5.index t (1 : Fin 2) * 256 + 1 * d.val = d.val; rw [e51]; omega
  · intro d
    show V c main_v38 (((cfg3.win 6).blk t).view.emb (ix2 0 d)) = V c main_v38 (ix2 0 d : S1x256.Idx)
    refine congrArg (V c main_v38) (funext fun a => Fin.ext ?_)
    match a with
    | ⟨0, _⟩ => show win3_6.index t (0 : Fin 2) * 1 + 1 * 0 = 0; rw [e60]
    | ⟨1, _⟩ => show win3_6.index t (1 : Fin 2) * 256 + 1 * d.val = d.val; rw [e61]; omega

/-- An index of the output array is in point `t`'s block iff each coordinate is in the block's range on its axis. -/
theorem mem_blk3 (t : Fin cfg3.N) (i : S50000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v39).slice (win3_7.rect t)).set ↔ _
  rw [View.set_slice_whole, Rect.mem_set_unit]
  exact Iff.rfl

/-- Every index of the output array is in some point's block: row `r` in the block of point `r / 2000`. -/
theorem cover3 (i : S50000x256.Idx) :
    ∃ t : Fin cfg3.N, (cfg3.win 7).flush t = true ∧ i ∈ ((cfg3.win 7).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, Nat.lt_of_lt_of_eq (by omega : (i 0).val / 2000 < 25) N_3.symm⟩, rfl⟩
  obtain ⟨e00, e01, e10, e11, e20, e21, e30, e31, e40, e41, e50, e51, e60, e61, e70, e71⟩ := idx_facts3 t
  refine ⟨t, flush3_7 t, ?_⟩
  rw [mem_blk3]
  intro a
  match a with
  | ⟨0, _⟩ =>
    show win3_7.index t (0 : Fin 2) * 2000 ≤ (i 0).val ∧ (i 0).val < win3_7.index t (0 : Fin 2) * 2000 + 2000
    rw [e70, ht]; omega
  | ⟨1, _⟩ =>
    show win3_7.index t (1 : Fin 2) * 256 ≤ (i 1).val ∧ (i 1).val < win3_7.index t (1 : Fin 2) * 256 + 256
    rw [e71]; omega

/-- The region's output array after its 25 points: the node update of the arrays the region was entered with. -/
theorem region3_value (c : Dev nD) :
    (Cert.KernelIdeal.Gen.dat3 (F := Ideal) V c).arrAt 7 cfg3.N
      = nodeG (V c main_v21) (V c main_v34) (V c main_v35) (V c main_v36) (V c main_v37) (V c main_arg17) (V c main_v38) :=
  (dat3 (F := Ideal) V c).arrAt_eq_of_cover 7
    (nodeG (V c main_v21) (V c main_v34) (V c main_v35) (V c main_v36) (V c main_v37) (V c main_arg17) (V c main_v38))
    (fun t _ => flushed3_eq V c t) cover3

end Region3

end Cert.NodeV

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.LibBridgeRead.lean ====
/-
  Host operations of a stacked-weight message network read at an index given by its coordinates.

  Each statement takes one host operation (or a short chain of them) at literal ranks and says which entry of the
  operand the entry at the named coordinates is:
    • a layer of a stack — the slice [1, a, B] of [L, A, B] at offsets (l, o, 0), its unit axis dropped — reads at (k, j)
      the stack at (l, o + k, j); likewise a row of a stack of vectors;
    • the maximum with the broadcast zero literal is the maximum with that literal;
    • three arrays laid side by side along axis 1 read, at a column, the piece that holds the column;
    • two columns laid side by side and flattened interleave their entries; a flat list broadcast to a column reads its entry;
    • 1600000 rows of 64 columns re-read as 800000 rows of 128 put rows 2 p and 2 p + 1 side by side in row p;
    • the wrap of a negative entry by a table height is one function of the 32-bit entry.
-/
import Idealize.ShloMosaic.PureOps.Ideal.Laws
import Idealize.ShloMosaic.Lib.Pipeline.Value
import Idealize.ShloMosaic.Lib.ValueIdx

noncomputable section

open scoped BigOperators

namespace Cert.BridgeRead

open Idealize.ShloMosaic Idealize.ShloMosaic.ValueIdx

variable {α : Type}

/-! ### A layer of a stack -/

/-- Rows o .. o + a − 1 of layer l of a stack [L, A, B]: the slice [1, a, B] at (l, o, 0) with the unit axis dropped reads
    at (k, j) the stack at (l, o + k, j). -/
theorem slice3_drop_apply {L A B a l o : Nat} (W : (⟨3, ![L, A, B]⟩ : Shape).Idx → α)
    (hs : (⟨3, ![L, A, B]⟩ : Shape).Slices ![l, o, 0] ⟨3, ![1, a, B]⟩)
    (hc : (⟨3, ![1, a, B]⟩ : Shape).ShapeCasts ⟨2, ![a, B]⟩) (hl : l < L) (k : Fin a) (ho : o + k.val < A) (j : Fin B) :
    shapeCast ⟨2, ![a, B]⟩ (extractStridedSlice ⟨3, ![1, a, B]⟩ ![l, o, 0] W hs) hc (ix2 k j)
      = W (ix3 ⟨l, hl⟩ ⟨o + k.val, ho⟩ j) := by
  refine (shapeCast_dropUnit_apply ![a, B] _ hc (ix2 k j)).trans ?_
  refine extractStridedSlice_apply ![l, o, 0] W hs _ _ fun ax => ?_
  match ax with
  | ⟨0, _⟩ => rfl
  | ⟨1, _⟩ => rfl
  | ⟨2, _⟩ => show j.val = 0 + j.val; omega

/-- Row l of a stack [L, B] of vectors: the slice [1, B] at (l, 0) with the unit axis dropped reads at j the stack at (l, j). -/
theorem slice2_drop_apply {L B l : Nat} (b : (⟨2, ![L, B]⟩ : Shape).Idx → α)
    (hs : (⟨2, ![L, B]⟩ : Shape).Slices ![l, 0] ⟨2, ![1, B]⟩)
    (hc : (⟨2, ![1, B]⟩ : Shape).ShapeCasts ⟨1, ![B]⟩) (hl : l < L) (j : Fin B) :
    shapeCast ⟨1, ![B]⟩ (extractStridedSlice ⟨2, ![1, B]⟩ ![l, 0] b hs) hc (ix1 j) = b (ix2 ⟨l, hl⟩ j) := by
  refine (shapeCast_dropUnit_apply ![B] _ hc (ix1 j)).trans ?_
  refine extractStridedSlice_apply ![l, 0] b hs _ _ fun ax => ?_
  match ax with
  | ⟨0, _⟩ => rfl
  | ⟨1, _⟩ => show j.val = 0 + j.val; omega

/-! ### Broadcasts -/

/-- A flat list broadcast to a column reads at (p, 0) its entry p. -/
theorem column_bcast_apply {P : Nat} (v : (⟨1, ![P]⟩ : Shape).Idx → α)
    (h : (⟨1, ![P]⟩ : Shape).BroadcastsInDim ⟨2, ![P, 1]⟩ (![0] : Fin 1 → Fin 2)) (p : Fin P) :
    broadcastInDim ⟨2, ![P, 1]⟩ ![0] h v (ix2 p 0) = v (ix1 p) := by
  refine broadcastInDim_apply _ h v (ix2 p 0) (ix1 p) fun ax => ?_
  match ax with
  | ⟨0, _⟩ =>
    show p.val = if P = 1 then 0 else p.val
    have := p.isLt
    split <;> omega

/-- The maximum with the broadcast of the zero literal, at an index. -/
theorem relu_apply {s : Shape} (x : FVec Ideal s .f32)
    (h0 : (⟨0, ![]⟩ : Shape).BroadcastsInDim s (![] : Fin 0 → Fin s.rank)) (i : s.Idx) :
    maximumf x (broadcastInDim s ![] h0 (constant (F := Ideal) ⟨0, ![]⟩ .f32 0x00000000#32)) i
      = max (x i) (Ideal.ofBits .f32 0x00000000#32) := rfl

/-! ### Pieces laid side by side -/

section Concat3
variable {E n₁ n₂ n₃ n : Nat} (x₁ : (⟨2, ![E, n₁]⟩ : Shape).Idx → α) (x₂ : (⟨2, ![E, n₂]⟩ : Shape).Idx → α)
  (x₃ : (⟨2, ![E, n₃]⟩ : Shape).Idx → α)
  (h : Shape.Concatenates [(⟨2, ![E, n₁]⟩ : Shape), ⟨2, ![E, n₂]⟩, ⟨2, ![E, n₃]⟩] ⟨2, ![E, n]⟩ 1)

/-- Three arrays side by side along axis 1, at a column of the first. -/
theorem concat3_apply_fst (p : Fin E) (c : Fin n) (hc : c.val < n₁) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₁ (ix2 p ⟨c.val, hc⟩) := by
  refine concatenate_apply_piece 1 [⟨⟨2, ![E, n₁]⟩, x₁⟩, ⟨⟨2, ![E, n₂]⟩, x₂⟩, ⟨⟨2, ![E, n₃]⟩, x₃⟩] h (ix2 p c) 0 (by show 0 < 3; omega) _ x₁ rfl rfl 0 rfl (ix2 p ⟨c.val, hc⟩) (fun b => ?_) ?_
  · match b with
    | ⟨0, _⟩ => exact fun _ => rfl
    | ⟨1, _⟩ => exact fun hne => absurd rfl hne
  · show 0 + c.val = c.val; omega

/-- Three arrays side by side along axis 1, at a column of the second. -/
theorem concat3_apply_snd (p : Fin E) (c : Fin n) (h1 : n₁ ≤ c.val) (h2 : c.val - n₁ < n₂) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₂ (ix2 p ⟨c.val - n₁, h2⟩) := by
  refine concatenate_apply_piece 1 [⟨⟨2, ![E, n₁]⟩, x₁⟩, ⟨⟨2, ![E, n₂]⟩, x₂⟩, ⟨⟨2, ![E, n₃]⟩, x₃⟩] h (ix2 p c) 1 (by show 1 < 3; omega) _ x₂ rfl rfl n₁ rfl (ix2 p ⟨c.val - n₁, h2⟩) (fun b => ?_) ?_
  · match b with
    | ⟨0, _⟩ => exact fun _ => rfl
    | ⟨1, _⟩ => exact fun hne => absurd rfl hne
  · show n₁ + (c.val - n₁) = c.val; omega

/-- Three arrays side by side along axis 1, at a column of the third. -/
theorem concat3_apply_trd (p : Fin E) (c : Fin n) (h1 : n₁ + n₂ ≤ c.val) (h2 : c.val - (n₁ + n₂) < n₃) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₃ (ix2 p ⟨c.val - (n₁ + n₂), h2⟩) := by
  refine concatenate_apply_piece 1 [⟨⟨2, ![E, n₁]⟩, x₁⟩, ⟨⟨2, ![E, n₂]⟩, x₂⟩, ⟨⟨2, ![E, n₃]⟩, x₃⟩] h (ix2 p c) 2 (by show 2 < 3; omega) _ x₃ rfl rfl (n₁ + n₂) rfl (ix2 p ⟨c.val - (n₁ + n₂), h2⟩) (fun b => ?_) ?_
  · match b with
    | ⟨0, _⟩ => exact fun _ => rfl
    | ⟨1, _⟩ => exact fun hne => absurd rfl hne
  · show n₁ + n₂ + (c.val - (n₁ + n₂)) = c.val; omega

end Concat3

/-! ### Two columns interleaved, and rows re-read in pairs -/

section Concat2
variable {E : Nat} (x₁ x₂ : (⟨2, ![E, 1]⟩ : Shape).Idx → α)
  (h : Shape.Concatenates [(⟨2, ![E, 1]⟩ : Shape), ⟨2, ![E, 1]⟩] ⟨2, ![E, 2]⟩ 1)

/-- Two columns side by side, at column 0: the first. -/
theorem concat2_cols_apply_fst (p : Fin E) :
    concatenate ⟨2, ![E, 2]⟩ 1 [⟨⟨2, ![E, 1]⟩, x₁⟩, ⟨⟨2, ![E, 1]⟩, x₂⟩] h (ix2 p 0) = x₁ (ix2 p 0) := by
  refine concatenate_apply_piece 1 [⟨⟨2, ![E, 1]⟩, x₁⟩, ⟨⟨2, ![E, 1]⟩, x₂⟩] h (ix2 p 0) 0 (by show 0 < 2; omega) _ x₁ rfl rfl 0 rfl
    (ix2 p 0) (fun b => ?_) rfl
  match b with
  | ⟨0, _⟩ => exact fun _ => rfl
  | ⟨1, _⟩ => exact fun hne => absurd rfl hne

/-- Two columns side by side, at column 1: the second. -/
theorem concat2_cols_apply_snd (p : Fin E) :
    concatenate ⟨2, ![E, 2]⟩ 1 [⟨⟨2, ![E, 1]⟩, x₁⟩, ⟨⟨2, ![E, 1]⟩, x₂⟩] h (ix2 p 1) = x₂ (ix2 p 0) := by
  refine concatenate_apply_piece 1 [⟨⟨2, ![E, 1]⟩, x₁⟩, ⟨⟨2, ![E, 1]⟩, x₂⟩] h (ix2 p 1) 1 (by show 1 < 2; omega) _ x₂ rfl rfl 1 rfl
    (ix2 p 0) (fun b => ?_) rfl
  match b with
  | ⟨0, _⟩ => exact fun _ => rfl
  | ⟨1, _⟩ => exact fun hne => absurd rfl hne

end Concat2

/-- An [800000, 2] array flattened: entry 2 p + c of the flat list is entry (p, c). -/
theorem reshape_interleave_apply (x : (⟨2, ![800000, 2]⟩ : Shape).Idx → α)
    (h : (⟨2, ![800000, 2]⟩ : Shape).ShapeCasts ⟨1, ![1600000]⟩) (p : Fin 800000) (c : Fin 2) :
    shapeCast ⟨1, ![1600000]⟩ x h (ix1 ⟨2 * p.val + c.val, by omega⟩) = x (ix2 p c) := by
  refine shapeCast_apply x h _ _ ?_
  rw [Shape.rowMajor_val_two, Shape.rowMajor_val_one]
  show p.val * 2 + c.val = 2 * p.val + c.val
  omega

/-- 1600000 rows of 64 columns re-read as 800000 rows of 128: entry (p, k) is row 2 p + k / 64, column k % 64. -/
theorem reshape_rowpairs_apply (x : (⟨2, ![1600000, 64]⟩ : Shape).Idx → α)
    (h : (⟨2, ![1600000, 64]⟩ : Shape).ShapeCasts ⟨2, ![800000, 128]⟩) (p : Fin 800000) (k : Fin 128) :
    shapeCast ⟨2, ![800000, 128]⟩ x h (ix2 p k)
      = x (ix2 ⟨2 * p.val + k.val / 64, by omega⟩ ⟨k.val % 64, by omega⟩) := by
  refine shapeCast_apply x h _ _ ?_
  rw [Shape.rowMajor_val_two, Shape.rowMajor_val_two]
  show (2 * p.val + k.val / 64) * 64 + k.val % 64 = p.val * 128 + k.val
  omega

/-! ### Start indices -/

/-- A start index as the host computes it from a node number: a negative 32-bit entry moved up by the table height. -/
def wrapW (N w : BitVec 32) : BitVec 32 := Scalar.select (IntOp.cmpi .slt w 0#32) (IntOp.addi w N) w

/-- The column of start indices made from a flat list of node numbers reads, at (p, 0), the wrap of entry p. -/
theorem start_apply {P : Nat} (N : BitVec 32) (v : IVec ⟨1, ![P]⟩ 32)
    (h0 : (⟨0, ![]⟩ : Shape).BroadcastsInDim ⟨1, ![P]⟩ (![] : Fin 0 → Fin 1))
    (hb : (⟨1, ![P]⟩ : Shape).BroadcastsInDim ⟨2, ![P, 1]⟩ (![0] : Fin 1 → Fin 2)) (p : Fin P) :
    broadcastInDim ⟨2, ![P, 1]⟩ ![0] hb
        (select (cmpi .slt v (broadcastInDim ⟨1, ![P]⟩ ![] h0 (constantI ⟨0, ![]⟩ 32 0#32)))
          (addi v (broadcastInDim ⟨1, ![P]⟩ ![] h0 (constantI ⟨0, ![]⟩ 32 N))) v) (ix2 p 0)
      = wrapW N (v (ix1 p)) :=
  column_bcast_apply _ hb p

end Cert.BridgeRead

end
-- ==== Proof.EdgeBridge.lean ====
/-
  The edge-message layer in the reference's host operations.

  The reference computes the layer as relu(attr @ W1 + b1) @ W2 + b2 + gathered with whole-array operations: a product
  contracting the attribute's unit axis, two biases broadcast first to a row and then down the rows, a maximum with the
  broadcast zero, a product contracting the 256 hidden units, and two additions. Read entry by entry at the exact
  extended-real values this is the layer's function: the first product's sum has one term, the second is the sum over
  the hidden units, and a broadcast bias reads its own entry.
-/
import proofs.«112174_j9062380995258_1_alg».proof.Proof.Gen.ReferenceIdeal
import proofs.«112174_j9062380995258_1_alg».proof.Proof.EdgeSpec
import proofs.«112174_j9062380995258_1_alg».proof.Proof.LibHostRead
import proofs.«112174_j9062380995258_1_alg».proof.Proof.LibBridgeRead

noncomputable section

open scoped BigOperators

namespace Cert.EdgeV

open Idealize.ShloMosaic Idealize.ShloMosaic.ValueIdx Cert.ReferenceIdeal Cert.ReferenceIdeal.Facts₀

/-- The layer's function of the arrays is the reference's chain of host operations on them; the kernel's bias rows
    `b1r`, `b2r` hold the reference's bias vectors. -/
theorem edge_ref_eq (ea : FVec Ideal S320000x1 .f32) (g : FVec Ideal S320000x256 .f32) (eW1 : FVec Ideal S1x256 .f32)
    (eb1 : FVec Ideal S256 .f32) (eW2 : FVec Ideal S256x256 .f32) (eb2 : FVec Ideal S256 .f32)
    (b1r b2r : S1x256.Idx → EReal) (h1 : ∀ d : Fin 256, b1r (ix2 0 d) = eb1 (ix1 d))
    (h2 : ∀ d : Fin 256, b2r (ix2 0 d) = eb2 (ix1 d)) :
    edgeG ea g eW1 b1r eW2 b2r
      = addf (addf (Host.dotGeneral (F := Ideal) dot_S320000x256_S256x256_S320000x256_1_0_0_1_n_n none
                (maximumf (addf (Host.dotGeneral (F := Ideal) dot_S320000x1_S1x256_S320000x256_1_0_0_1_n_n none ea eW1)
                                (broadcastInDim S320000x256 ![0, 1] bcast_S1x256_S320000x256_0_1 (broadcastInDim S1x256 ![1] bcast_S256_S1x256_1 eb1)))
                          (broadcastInDim S320000x256 ![] bcast_S_S320000x256 (constant (F := Ideal) S_ .f32 0x00000000#32)))
                eW2)
              (broadcastInDim S320000x256 ![0, 1] bcast_S1x256_S320000x256_0_1 (broadcastInDim S1x256 ![1] bcast_S256_S1x256_1 eb2)))
             g := by
  funext i
  obtain ⟨e, c, rfl⟩ : ∃ (e : Fin 320000) (c : Fin 256), i = ix2 e c := ⟨i 0, i 1, eq_ix2 i⟩
  refine (edgeG_apply ea g eW1 b1r eW2 b2r e c).trans (Eq.symm ?_)
  refine (addf_apply _ _ _).trans ?_
  refine congrArg₂ (· + ·) ((addf_apply _ _ _).trans (congrArg₂ (· + ·) ?_ ?_)) rfl
  · refine (Cert.HostRead.dotGeneral_ix2_apply dot_S320000x256_S256x256_S320000x256_1_0_0_1_n_n rfl rfl rfl rfl rfl rfl
      none _ eW2 e c).trans ?_
    refine Finset.sum_congr rfl fun d _ => ?_
    refine congrArg₂ (· * ·) ?_ rfl
    refine (Cert.BridgeRead.relu_apply _ _ _).trans ?_
    refine congrArg₂ max ?_ rfl
    refine (addf_apply _ _ _).trans ?_
    refine congrArg₂ (· + ·) ?_ ?_
    · refine (Cert.HostRead.dotGeneral_ix2_apply dot_S320000x1_S1x256_S320000x256_1_0_0_1_n_n rfl rfl rfl rfl rfl rfl
        none ea eW1 e d).trans ?_
      exact Fin.sum_univ_one _
    · exact (Cert.HostRead.bias_rows_apply bcast_S256_S1x256_1 bcast_S1x256_S320000x256_0_1 eb1 e d).trans (h1 d).symm
  · exact (Cert.HostRead.bias_rows_apply bcast_S256_S1x256_1 bcast_S1x256_S320000x256_0_1 eb2 e c).trans (h2 c).symm

end Cert.EdgeV

end
-- ==== Proof.NodeBridge.lean ====
/-
  The node update written in the reference's host operations is the same function of the whole arrays.

  The reference concatenates the node features `x` and the aggregated messages `a` along the columns into a
  50000 × 512 array, multiplies by the 512 × 256 first weight `W`, adds the first bias, takes the maximum with zero,
  multiplies by the second weight, adds the second bias, and adds `x`. Read at an entry: a host product is the finite
  sum over the contracted coordinate; the sum over the 512 columns of the concatenated row splits into the sum over
  its first 256 columns, where the row is `x`'s and the weight's rows are the first half `wa`, plus the sum over
  its last 256, where the row is `a`'s and the weight's rows are the second half `wb`; a bias broadcast to a row and
  then down the rows reads its own entry. Only the rearrangement of the one sum into two is used.
-/
import proofs.«112174_j9062380995258_1_alg».proof.ReferenceIdeal
import proofs.«112174_j9062380995258_1_alg».proof.Proof.Gen.ReferenceIdeal
import proofs.«112174_j9062380995258_1_alg».proof.Proof.NodeSpec
import proofs.«112174_j9062380995258_1_alg».proof.Proof.LibHostRead
import proofs.«112174_j9062380995258_1_alg».proof.Proof.LibBridgeRead
import Idealize.ShloMosaic.Lib.Pipeline.Value
import Idealize.ShloMosaic.Lib.ValueIdx

noncomputable section

open scoped BigOperators

namespace Cert.NodeV

open Idealize.ShloMosaic Idealize.ShloMosaic.ValueIdx Cert.HostRead Cert.BridgeRead
open Cert.ReferenceIdeal Cert.ReferenceIdeal.Facts₀

/-- A sum over 512 terms is the sum of its first 256 plus the sum of its last 256. -/
theorem sum_split_512 {M : Type} [AddCommMonoid M] (f : Fin 512 → M) :
    ∑ j : Fin 512, f j = (∑ k : Fin 256, f ⟨k.val, by omega⟩) + ∑ k : Fin 256, f ⟨256 + k.val, by omega⟩ :=
  Fin.sum_univ_add (a := 256) (b := 256) (fun j : Fin (256 + 256) => f j)

variable {α : Type}

/-- Two 256-column arrays side by side, read in the first 256 columns: the first array. -/
theorem concat_cols_left (x a : (⟨2, ![50000, 256]⟩ : Shape).Idx → α)
    (h : Shape.Concatenates [(⟨2, ![50000, 256]⟩ : Shape), ⟨2, ![50000, 256]⟩] ⟨2, ![50000, 512]⟩ 1)
    (n : Fin 50000) (k : Fin 256) :
    concatenate ⟨2, ![50000, 512]⟩ 1 [⟨⟨2, ![50000, 256]⟩, x⟩, ⟨⟨2, ![50000, 256]⟩, a⟩] h (ix2 n ⟨k.val, by omega⟩)
      = x (ix2 n k) :=
  concatenate_pair_apply_left 1 x a h (ix2 n ⟨k.val, by omega⟩) rfl (ix2 n k) fun b => by
    match b with
    | ⟨0, _⟩ => rfl
    | ⟨1, _⟩ => rfl

/-- Two 256-column arrays side by side, read in the last 256 columns: the second array. -/
theorem concat_cols_right (x a : (⟨2, ![50000, 256]⟩ : Shape).Idx → α)
    (h : Shape.Concatenates [(⟨2, ![50000, 256]⟩ : Shape), ⟨2, ![50000, 256]⟩] ⟨2, ![50000, 512]⟩ 1)
    (n : Fin 50000) (k : Fin 256) :
    concatenate ⟨2, ![50000, 512]⟩ 1 [⟨⟨2, ![50000, 256]⟩, x⟩, ⟨⟨2, ![50000, 256]⟩, a⟩] h (ix2 n ⟨256 + k.val, by omega⟩)
      = a (ix2 n k) :=
  concatenate_pair_apply_right 1 x a h (ix2 n ⟨256 + k.val, by omega⟩) rfl rfl (ix2 n k)
    (fun b hb => by
      match b with
      | ⟨0, _⟩ => rfl
      | ⟨1, _⟩ => exact absurd rfl hb)
    (by show k.val + 256 = 256 + k.val; omega)

/-- The first layer before the maximum, at row `n`, column `d`: the two half products and the bias are the host
    product of the concatenated row with the whole first weight, plus the broadcast bias. -/
theorem first_layer_eq (x a : FVec Ideal S50000x256 .f32) (W : FVec Ideal S512x256 .f32) (nb1 : FVec Ideal S256 .f32)
    (wa wb : S256x256.Idx → EReal) (b1r : S1x256.Idx → EReal)
    (hwa : ∀ (k : Fin 256) (d : Fin 256), wa (ix2 k d) = W (ix2 ⟨k.val, by omega⟩ d))
    (hwb : ∀ (k : Fin 256) (d : Fin 256), wb (ix2 k d) = W (ix2 ⟨256 + k.val, by omega⟩ d))
    (h1 : ∀ d : Fin 256, b1r (ix2 0 d) = nb1 (ix1 d)) (n : Fin 50000) (d : Fin 256) :
    ((∑ k : Fin 256, x (ix2 n k) * wa (ix2 k d)) + (∑ k : Fin 256, a (ix2 n k) * wb (ix2 k d))) + b1r (ix2 0 d)
      = addf (Host.dotGeneral (F := Ideal) dot_S50000x512_S512x256_S50000x256_1_0_0_1_n_n none
              (concatenate S50000x512 1 [⟨S50000x256, x⟩, ⟨S50000x256, a⟩] concatenates_S50000x256_S50000x256_S50000x512_d1) W)
            (broadcastInDim S50000x256 ![0, 1] bcast_S1x256_S50000x256_0_1 (broadcastInDim S1x256 ![1] bcast_S256_S1x256_1 nb1))
          (ix2 n d) := by
  refine Eq.trans ?_ (addf_apply _ _ (ix2 n d)).symm
  refine congrArg₂ (· + ·) ?_ ?_
  · refine Eq.trans ?_ (dotGeneral_ix2_apply dot_S50000x512_S512x256_S50000x256_1_0_0_1_n_n rfl rfl rfl rfl rfl rfl none _ W n d).symm
    refine Eq.trans ?_ (sum_split_512 _).symm
    refine congrArg₂ (· + ·) (Finset.sum_congr rfl fun k _ => ?_) (Finset.sum_congr rfl fun k _ => ?_)
    · exact congrArg₂ (· * ·) (concat_cols_left x a concatenates_S50000x256_S50000x256_S50000x512_d1 n k).symm (hwa k d)
    · exact congrArg₂ (· * ·) (concat_cols_right x a concatenates_S50000x256_S50000x256_S50000x512_d1 n k).symm (hwb k d)
  · exact (h1 d).trans (bias_rows_apply bcast_S256_S1x256_1 bcast_S1x256_S50000x256_0_1 nb1 n d).symm

/-- The node update as one function of the whole arrays is the reference's chain of host operations. -/
theorem node_ref_eq (x a : FVec Ideal S50000x256 .f32) (W : FVec Ideal S512x256 .f32) (nb1 : FVec Ideal S256 .f32)
    (W2 : FVec Ideal S256x256 .f32) (nb2 : FVec Ideal S256 .f32)
    (wa wb : S256x256.Idx → EReal) (b1r b2r : S1x256.Idx → EReal)
    (hwa : ∀ (k : Fin 256) (d : Fin 256), wa (ix2 k d) = W (ix2 ⟨k.val, by omega⟩ d))
    (hwb : ∀ (k : Fin 256) (d : Fin 256), wb (ix2 k d) = W (ix2 ⟨256 + k.val, by omega⟩ d))
    (h1 : ∀ d : Fin 256, b1r (ix2 0 d) = nb1 (ix1 d)) (h2 : ∀ d : Fin 256, b2r (ix2 0 d) = nb2 (ix1 d)) :
    nodeG x a wa wb b1r W2 b2r
      = addf x (addf (Host.dotGeneral (F := Ideal) dot_S50000x256_S256x256_S50000x256_1_0_0_1_n_n none
                  (maximumf (addf (Host.dotGeneral (F := Ideal) dot_S50000x512_S512x256_S50000x256_1_0_0_1_n_n none
                                      (concatenate S50000x512 1 [⟨S50000x256, x⟩, ⟨S50000x256, a⟩] concatenates_S50000x256_S50000x256_S50000x512_d1) W)
                                  (broadcastInDim S50000x256 ![0, 1] bcast_S1x256_S50000x256_0_1 (broadcastInDim S1x256 ![1] bcast_S256_S1x256_1 nb1)))
                            (broadcastInDim S50000x256 ![] bcast_S_S50000x256 (constant (F := Ideal) S_ .f32 0x00000000#32)))
                  W2)
                (broadcastInDim S50000x256 ![0, 1] bcast_S1x256_S50000x256_0_1 (broadcastInDim S1x256 ![1] bcast_S256_S1x256_1 nb2))) := by
  funext i
  obtain ⟨n, c, rfl⟩ : ∃ (n : Fin 50000) (c : Fin 256), i = ix2 n c := ⟨i 0, i 1, eq_ix2 i⟩
  refine Eq.trans ?_ (addf_apply _ _ (ix2 n c)).symm
  refine congrArg₂ (· + ·) rfl ?_
  refine Eq.trans ?_ (addf_apply _ _ (ix2 n c)).symm
  refine congrArg₂ (· + ·) ?_ ?_
  · refine Eq.trans ?_ (dotGeneral_ix2_apply dot_S50000x256_S256x256_S50000x256_1_0_0_1_n_n rfl rfl rfl rfl rfl rfl none _ W2 n c).symm
    refine Finset.sum_congr rfl fun d _ => congrArg₂ (· * ·) ?_ rfl
    refine Eq.trans ?_ (relu_apply _ bcast_S_S50000x256 (ix2 n d)).symm
    exact congrArg₂ max (first_layer_eq x a W nb1 wa wb b1r hwa hwb h1 n d) rfl
  · exact (h2 c).trans (bias_rows_apply bcast_S256_S1x256_1 bcast_S1x256_S50000x256_0_1 nb2 n c).symm

end Cert.NodeV

end
-- ==== Proof.LayerEq.lean ====
/-
  One layer of the kernel is one layer of the reference.

  Both take the source rows of the features by the same gather and sum the messages at their destinations by the same
  scatter-add; between those the kernel's edge region and node region compute, entry by entry, what the reference's host
  operations compute: a contraction of extent one is a product, a bias laid out as a row and broadcast down the rows reads
  its own entry, and the product of a row of [x, agg] with the 512-row weight is the product of x with the weight's first
  256 rows plus the product of agg with its last 256 rows (a finite sum split in two: no finiteness of the entries is
  used).
-/
import proofs.«112174_j9062380995258_1_alg».proof.Proof.KernelValue
import proofs.«112174_j9062380995258_1_alg».proof.Proof.RefLayers
import proofs.«112174_j9062380995258_1_alg».proof.Proof.EdgeRegion
import proofs.«112174_j9062380995258_1_alg».proof.Proof.EdgeBridge
import proofs.«112174_j9062380995258_1_alg».proof.Proof.NodeRegion
import proofs.«112174_j9062380995258_1_alg».proof.Proof.NodeBridge
import Idealize.ShloMosaic.Lib.Pipeline.Value
import Idealize.ShloMosaic.Lib.ValueIdx

set_option maxRecDepth 16384

noncomputable section

namespace Cert.LayerEq

open Idealize.ShloMosaic Idealize.ShloMosaic.ValueIdx Cert.KernelIdeal Cert.KernelIdeal.Gen
open Cert.KernelIdeal.KV (rs topHalf botHalf gathered summed)

/-- A bias laid out as one row reads, at column `d`, the bias's entry `d`. -/
theorem rs_apply (b : (⟨S256, .f32⟩ : BufTy).Contents (Elt Ideal)) (d : Fin 256) : rs b (ix2 0 d) = b (ix1 d) := by
  unfold rs
  refine (shapeCast_addUnit_apply ![256] b shapeCasts_S256_S1x256 (ix2 0 d)).trans (congrArg b ?_)
  funext a
  match a with
  | ⟨0, _⟩ => rfl

/-- Row `k` of the weight's top half is row `k` of the weight. -/
theorem topHalf_apply (W : (⟨S512x256, .f32⟩ : BufTy).Contents (Elt Ideal)) (k d : Fin 256) :
    topHalf W (ix2 k d) = W (ix2 ⟨k.val, by omega⟩ d) := by
  unfold topHalf
  refine extractStridedSlice_apply _ W slices_S512x256_S256x256_0_0 (ix2 k d) (ix2 ⟨k.val, by omega⟩ d) ?_
  intro a
  match a with
  | ⟨0, _⟩ => simp [ix2]
  | ⟨1, _⟩ => simp [ix2]

/-- Row `k` of the weight's bottom half is row `256 + k` of the weight. -/
theorem botHalf_apply (W : (⟨S512x256, .f32⟩ : BufTy).Contents (Elt Ideal)) (k d : Fin 256) :
    botHalf W (ix2 k d) = W (ix2 ⟨256 + k.val, by omega⟩ d) := by
  unfold botHalf
  refine extractStridedSlice_apply _ W slices_S512x256_S256x256_256_0 (ix2 k d) (ix2 ⟨256 + k.val, by omega⟩ d) ?_
  intro a
  match a with
  | ⟨0, _⟩ => simp [ix2]
  | ⟨1, _⟩ => simp [ix2]

/-- The kernel's layer, with the two regions' functions, is the reference's layer. -/
theorem layer_eq (x : (⟨S50000x256, .f32⟩ : BufTy).Contents (Elt Ideal)) (ei : (⟨S2x320000, .i32⟩ : BufTy).Contents (Elt Ideal)) (ea : (⟨S320000x1, .f32⟩ : BufTy).Contents (Elt Ideal))
    (eW1 : (⟨S1x256, .f32⟩ : BufTy).Contents (Elt Ideal)) (eb1 : (⟨S256, .f32⟩ : BufTy).Contents (Elt Ideal)) (eW2 : (⟨S256x256, .f32⟩ : BufTy).Contents (Elt Ideal)) (eb2 : (⟨S256, .f32⟩ : BufTy).Contents (Elt Ideal))
    (nW1 : (⟨S512x256, .f32⟩ : BufTy).Contents (Elt Ideal)) (nb1 : (⟨S256, .f32⟩ : BufTy).Contents (Elt Ideal)) (nW2 : (⟨S256x256, .f32⟩ : BufTy).Contents (Elt Ideal)) (nb2 : (⟨S256, .f32⟩ : BufTy).Contents (Elt Ideal)) :
    Cert.KernelIdeal.KV.layer Cert.EdgeV.edgeG Cert.NodeV.nodeG x ei ea eW1 eb1 eW2 eb2 nW1 nb1 nW2 nb2
      = Cert.ReferenceIdeal.RefV.layer (F := Ideal) x ei ea eW1 eb1 eW2 eb2 nW1 nb1 nW2 nb2 := by
  unfold Cert.KernelIdeal.KV.layer Cert.ReferenceIdeal.RefV.layer
  rw [Cert.EdgeV.edge_ref_eq ea (gathered x ei) eW1 eb1 eW2 eb2 (rs eb1) (rs eb2) (rs_apply eb1) (rs_apply eb2)]
  rw [Cert.NodeV.node_ref_eq x _ nW1 nb1 nW2 nb2 (topHalf nW1) (botHalf nW1) (rs nb1) (rs nb2)
    (topHalf_apply nW1) (botHalf_apply nW1) (rs_apply nb1) (rs_apply nb2)]
  rfl

end Cert.LayerEq

end
-- ==== Proof.lean ====
/-
  The certificate of the two-layer message-passing kernel against its reference.

  The kernel runs each layer as a gather of the edges' source rows, an edge region (every edge's message from its
  attribute and its source's features), a scatter-add of the messages at their destinations, and a node region (every
  node's features plus the two-layer map of its features beside its summed messages); the reference computes the same
  layer with host operations only. Read as extended reals, with every float operation exact and a change of format the
  identity, the two layers are one function of their arrays, so the two programs, from arguments that agree, end with
  the same result.

  The three frames: the word-level kernel's and the idealized kernel's are the generated frame certificates; the
  reference's is its generated run with the result dropped. The idealization rewrote no operation, so `preserves` is
  trivial. The value claim: the kernel's run names every buffer at the last boundary of its segments (KernelRun), the
  result array there is the kernel's layer applied twice (KernelValue, from what each region writes: EdgeRegion,
  NodeRegion), the reference's result is its layer applied twice (RefLayers), and the two layers agree (LayerEq).
-/
import proofs.«112174_j9062380995258_1_alg».proof.Defs
import proofs.«112174_j9062380995258_1_alg».proof.Proof.Gen.Kernel
import proofs.«112174_j9062380995258_1_alg».proof.Proof.Gen.Kernel.Frame
import proofs.«112174_j9062380995258_1_alg».proof.Proof.Gen.KernelIdeal
import proofs.«112174_j9062380995258_1_alg».proof.Proof.Gen.KernelIdeal.Frame
import proofs.«112174_j9062380995258_1_alg».proof.Proof.Gen.ReferenceIdeal
import proofs.«112174_j9062380995258_1_alg».proof.Proof.Gen.Pre_finite_inputs
import proofs.«112174_j9062380995258_1_alg».proof.Proof.Gen.ReferenceIdeal.Run
import proofs.«112174_j9062380995258_1_alg».proof.Proof.Gen.ReferenceIdeal.Read
import proofs.«112174_j9062380995258_1_alg».proof.Proof.KernelRun
import proofs.«112174_j9062380995258_1_alg».proof.Proof.KernelValue
import proofs.«112174_j9062380995258_1_alg».proof.Proof.RefLayers
import proofs.«112174_j9062380995258_1_alg».proof.Proof.EdgeRegion
import proofs.«112174_j9062380995258_1_alg».proof.Proof.NodeRegion
import proofs.«112174_j9062380995258_1_alg».proof.Proof.LayerEq

set_option maxRecDepth 16384

noncomputable section

namespace Cert.Proof

open Idealize.ShloMosaic Idealize.ShloMosaic.TcCoe Idealize.SL.Sem

/-- What the four regions write, as the two whole-array functions. -/
theorem regionValues : Cert.KernelIdeal.KV.RegionValues Cert.EdgeV.edgeG Cert.NodeV.nodeG :=
  ⟨Cert.EdgeV.region0_value, Cert.NodeV.region1_value, Cert.EdgeV.region2_value, Cert.NodeV.region3_value⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Both programs end at the layer applied to the layer, of arguments that agree. -/
theorem algebraic : Cert.algebraic_KernelIdeal_ReferenceIdeal := by
  intro m ρ m' ρ' _ hagree
  refine ⟨fun c => Cert.KernelIdeal.KV.layer Cert.EdgeV.edgeG Cert.NodeV.nodeG
      (Cert.KernelIdeal.KV.layer Cert.EdgeV.edgeG Cert.NodeV.nodeG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.KV.w8_v39 Cert.EdgeV.edgeG Cert.NodeV.nodeG m ρ c regionValues), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefV.res_eq]
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    rw [← Cert.LayerEq.layer_eq, ← Cert.LayerEq.layer_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
